-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x2048 : Shape := ⟨3, ![8, 512, 2048]⟩
abbrev S2048x2048 : Shape := ⟨2, ![2048, 2048]⟩
abbrev S1x2048 : Shape := ⟨2, ![1, 2048]⟩
abbrev S_ : Shape := ⟨0, ![]⟩

class Facts : Prop where
  bcast_S_S8x512x2048 : S_.BroadcastsInDim S8x512x2048 (![] : Fin 0 → Fin S8x512x2048.rank)
  reducesTo_S8x512x2048_S_d0_1_2 : S8x512x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S8x512x2048 .f32) (main_arg1 : FVec F S2048x2048 .f32) (main_arg2 : FVec F S1x2048 .f32) : IVec S_ 1 :=
  let main_v0 : FVec F S8x512x2048 .f32 := Host.absf main_arg0
  let main_cst : FVec F S_ .f32 := constant S_ .f32 0x7F800000#32
  let main_v1 : FVec F S8x512x2048 .f32 := broadcastInDim S8x512x2048 ![] bcast_S_S8x512x2048 main_cst
  let main_v2 : IVec S8x512x2048 1 := cmpf .olt main_v0 main_v1
  let main_c : IVec S_ 1 := constantI S_ 1 1#1
  let main_v3 : IVec S_ 1 := (fun x v => Host.reduce IntOp.andi x v reducesTo_S8x512x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  main_v13
-- ==== Kernel.lean ====
abbrev S8x512x2048 : Shape := ⟨3, ![8, 512, 2048]⟩
abbrev S2048x2048 : Shape := ⟨2, ![2048, 2048]⟩
abbrev S1x2048 : Shape := ⟨2, ![1, 2048]⟩
abbrev S4096x2048 : Shape := ⟨2, ![4096, 2048]⟩
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 6
  | .vmem => 8
  | .smem => 0
  | _ => 0

abbrev bufTy : (tb : Table) → Fin (tcTables nBuf tb) → BufTy
  | .hbm, ⟨0, _⟩ => ⟨S8x512x2048, .f32⟩
  | .hbm, ⟨1, _⟩ => ⟨S2048x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S8x512x2048, .f32⟩
  | .local _ .vmem, ⟨0, _⟩ => ⟨S512x1024, .f32⟩
  | .local _ .vmem, ⟨1, _⟩ => ⟨S512x1024, .f32⟩
  | .local _ .vmem, ⟨2, _⟩ => ⟨S1024x2048, .f32⟩
  | .local _ .vmem, ⟨3, _⟩ => ⟨S1024x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S4096x2048, .bf16⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c512_i32 : BitVec 32 := 512#32
  let v4 : BitVec 32 := Scalar.muli arg1 c512_i32
  let v17 : Index := Scalar.indexCast v4
  let c0_8 : Index := 0#32
  ![v17.toNat, 0]
def k0_cond2 (i : grid0.Coords) : BitVec 1 :=
  let arg0 : BitVec 32 := BitVec.ofNat 32 (i 0).val
  let c0_i32_4 : BitVec 32 := 0#32
  let v8 : BitVec 1 := Scalar.cmpi .sgt arg0 c0_i32_4
  let c1_i32 : BitVec 32 := 1#32
  let v9 : BitVec 1 := Scalar.cmpi .slt arg0 c1_i32
  let v10 : BitVec 1 := Scalar.andi v8 v9
  let v11 : BitVec 32 := Scalar.extui v10
  let c0_i32_5 : BitVec 32 := 0#32
  let v12 : BitVec 1 := Scalar.cmpi .ne v11 c0_i32_5
  v12

def k0_off2 (i : grid0.Coords) : Fin 2 → Nat :=
  let arg1 : BitVec 32 := BitVec.ofNat 32 (i 1).val
  let c512_i32 : BitVec 32 := 512#32
  let v4 : BitVec 32 := Scalar.muli arg1 c512_i32
  let v16 : Index := Scalar.indexCast v4
  let c0_8 : Index := 0#32
  ![v16.toNat, 0]
def k0_cond3 (i : grid0.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def k0_off3 (i : grid0.Coords) : Fin 2 → Nat :=
  let arg1 : BitVec 32 := BitVec.ofNat 32 (i 1).val
  let c512_i32 : BitVec 32 := 512#32
  let v4 : BitVec 32 := Scalar.muli arg1 c512_i32
  let v16 : Index := Scalar.indexCast v4
  let c0_8 : Index := 0#32
  ![v16.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x512x2048_S4096x2048 : S8x512x2048.ShapeCasts S4096x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  broadcasts_S1x2048_S512x2048 : S1x2048.Broadcasts S512x2048
  inb_S512x2048_S512x2048_0_0 : ∀ a, (![0, 0] : Fin 2 → Nat) a + S512x2048.size a ≤ S512x2048.size a
  shapeCasts_S4096x2048_S8x512x2048 : S4096x2048.ShapeCasts S8x512x2048
  dot_S512x1024_S1024x2048_S512x2048_1_0_0_1_n_n_wf : DotDims.WF S512x1024 S1024x2048 S512x2048 [1] [0] [0] [1] [] []
  hrank0 : 0 < grid0.rank
  k0_off1_inb : ∀ i : grid0.Coords, ∀ (k0_h1 : k0_cond1 i = 1#1), ∀ a, (k0_off1 i) a + S512x2048.size a ≤ S4096x2048.size a
  k0_off1_packedbf16 : ∀ i : grid0.Coords, ∀ (k0_h1 : k0_cond1 i = 1#1), (Rect.unit (s := S4096x2048) (k0_off1 i) S512x2048.size (k0_off1_inb i k0_h1)).PackedRows (EltTy.packing .bf16)
  k0_off2_inb : ∀ i : grid0.Coords, ∀ (k0_h2 : k0_cond2 i = 1#1), ∀ a, (k0_off2 i) a + S512x2048.size a ≤ S4096x2048.size a
  k0_off2_packedbf16 : ∀ i : grid0.Coords, ∀ (k0_h2 : k0_cond2 i = 1#1), (Rect.unit (s := S4096x2048) (k0_off2 i) S512x2048.size (k0_off2_inb i k0_h2)).PackedRows (EltTy.packing .bf16)
  k0_off3_inb : ∀ i : grid0.Coords, ∀ (k0_h3 : k0_cond3 i = 1#1), ∀ a, (k0_off3 i) a + S512x2048.size a ≤ S4096x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x2048.size a
  hwx0_0 : ∀ i : grid0.Coords, EltTy.bits .f32 = 32 ∨ (Rect.block (s := S4096x2048) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S2048x2048.size a
  hwx0_1 : ∀ i : grid0.Coords, EltTy.bits .f32 = 32 ∨ (Rect.block (s := S2048x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .f32 = 32 ∨ (Rect.block (s := S4096x2048) S512x2048.size (cc0_transform_3 i) (hinb0_3 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8x512x2048 : Shape := ⟨3, ![8, 512, 2048]⟩
abbrev S2048x2048 : Shape := ⟨2, ![2048, 2048]⟩
abbrev S1x2048 : Shape := ⟨2, ![1, 2048]⟩
abbrev S4096x2048 : Shape := ⟨2, ![4096, 2048]⟩
abbrev S512x512 : Shape := ⟨2, ![512, 512]⟩
abbrev S1x512 : Shape := ⟨2, ![1, 512]⟩

abbrev nBuf : Space → Nat
  | .hbm => 6
  | .vmem => 9
  | .smem => 0
  | _ => 0

abbrev bufTy : (tb : Table) → Fin (tcTables nBuf tb) → BufTy
  | .hbm, ⟨0, _⟩ => ⟨S8x512x2048, .f32⟩
  | .hbm, ⟨1, _⟩ => ⟨S2048x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S8x512x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8x512x2048_S4096x2048 : S8x512x2048.ShapeCasts S4096x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  broadcasts_S1x512_S512x512 : S1x512.Broadcasts S512x512
  shapeCasts_S4096x2048_S8x512x2048 : S4096x2048.ShapeCasts S8x512x2048
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x2048.size a
  hwx0_0 : ∀ i : grid0.Coords, EltTy.bits .f32 = 32 ∨ (Rect.block (s := S4096x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x2048.size a
  hwx0_1 : ∀ i : grid0.Coords, EltTy.bits .f32 = 32 ∨ (Rect.block (s := S2048x2048) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x2048.size a
  hwx0_3 : ∀ i : grid0.Coords, EltTy.bits .f32 = 32 ∨ (Rect.block (s := S4096x2048) S512x512.size (cc0_transform_3 i) (hinb0_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== Proof.KBShared.lean ====
/-
  The grid of the dense kernel and what its body does where.

  The grid has 16 points, numbered t = 8·k + i with k the half of the contraction (0 or 1) and i the block of 512
  rows (0 … 7). At the eight points of the first half (t < 8) the body stores the partial product of its row block
  into rows [512·i, 512·i + 512) of the full-height scratch and leaves the output's staging buffer alone; at the
  eight points of the second half (8 ≤ t) it reads those rows back, adds the second partial product and the bias
  row, and stores the sum into the output's staging buffer. The middle branch (0 < k < 1) is met nowhere.
  The output window is parked on block 0 during the first half and is not written back there.
-/
import proofs.«166904_g2000606664748321_pallasbulk_460_14_alg».proof.Proof.Gen.Kernel.Frame
import proofs.«166904_g2000606664748321_pallasbulk_460_14_alg».proof.Proof.Gen.Kernel.Skeleton
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The first branch (k = 0) is taken exactly at the points t < 8. -/
theorem first_half : ∀ t : Fin cfg0.N, k0_cond1 (grid0.coords t) = 1#1 ↔ t.val < 8 :=
  (by decide +kernel : ∀ t : Fin grid0.N, k0_cond1 (grid0.coords t) = 1#1 ↔ t.val < 8)

/-- The middle branch (0 < k < 1) is taken nowhere. -/
theorem middle_never : ∀ t : Fin cfg0.N, ¬k0_cond2 (grid0.coords t) = 1#1 :=
  (by decide +kernel : ∀ t : Fin grid0.N, ¬k0_cond2 (grid0.coords t) = 1#1)

/-- The last branch (k = 1) is taken exactly at the points 8 ≤ t. -/
theorem second_half : ∀ t : Fin cfg0.N, k0_cond3 (grid0.coords t) = 1#1 ↔ 8 ≤ t.val :=
  (by decide +kernel : ∀ t : Fin grid0.N, k0_cond3 (grid0.coords t) = 1#1 ↔ 8 ≤ t.val)

/-- The three input windows are never idle. -/
theorem live_x : ∀ t : Fin cfg0.N, cfg0.idle 0 (grid0.coords t) = false := by decide +kernel
theorem live_w : ∀ t : Fin cfg0.N, cfg0.idle 1 (grid0.coords t) = false := by decide +kernel
theorem live_b : ∀ t : Fin cfg0.N, cfg0.idle 2 (grid0.coords t) = false := by decide +kernel
/-- The output window is idle in the first half, and not written back there; it is live in the second half. -/
theorem idle_out : ∀ t : Fin cfg0.N, t.val < 8 → cfg0.idle 3 (grid0.coords t) = true := by decide +kernel
theorem noflush_out : ∀ t : Fin cfg0.N, t.val < 8 → (cfg0.win 3).flush t = false := by decide +kernel
theorem live_out : ∀ t : Fin cfg0.N, 8 ≤ t.val → cfg0.idle 3 (grid0.coords t) = false := by decide +kernel
/-- In the second half every point writes its output block back. -/
theorem flush_out : ∀ t : Fin cfg0.N, 8 ≤ t.val → (cfg0.win 3).flush t = true := by decide +kernel

/-- The row offset the body computes at a point of the first half is 512 times the row block. -/
theorem off_first : ∀ t : Fin cfg0.N, k0_off1 (grid0.coords t) = ![512 * (t.val % 8), 0] :=
  (by decide +kernel : ∀ t : Fin grid0.N, k0_off1 (grid0.coords t) = ![512 * (t.val % 8), 0])
/-- And the same at a point of the second half. -/
theorem off_second : ∀ t : Fin cfg0.N, k0_off3 (grid0.coords t) = ![512 * (t.val % 8), 0] :=
  (by decide +kernel : ∀ t : Fin grid0.N, k0_off3 (grid0.coords t) = ![512 * (t.val % 8), 0])

/-- Each window's current staging buffer at point t, as the pipeline passes it to the body. -/
abbrev stX (t : Fin cfg0.N) : Memref sig .tc .vmem S512x1024 .f32 := win0_0.stage (cfg0.slots t 0)
abbrev hstX (t : Fin cfg0.N) : (stX t).IsWhole := hstage0_0 ((cfg0.slots t 0).cast nbuf0_0)
abbrev stW (t : Fin cfg0.N) : Memref sig .tc .vmem S1024x2048 .f32 := win0_1.stage (cfg0.slots t 1)
abbrev hstW (t : Fin cfg0.N) : (stW t).IsWhole := hstage0_1 ((cfg0.slots t 1).cast nbuf0_1)
abbrev stB (t : Fin cfg0.N) : Memref sig .tc .vmem S1x2048 .f32 := win0_2.stage (cfg0.slots t 2)
abbrev hstB (t : Fin cfg0.N) : (stB t).IsWhole := hstage0_2 ((cfg0.slots t 2).cast nbuf0_2)
abbrev stO (t : Fin cfg0.N) : Memref sig .tc .vmem S512x2048 .f32 := win0_3.stage (cfg0.slots t 3)
abbrev hstO (t : Fin cfg0.N) : (stO t).IsWhole := hstage0_3 ((cfg0.slots t 3).cast nbuf0_3)
/-- The full-height scratch, a whole buffer of the kernel's own. -/
abbrev scr : Memref sig .tc .vmem S4096x2048 .bf16 := Memref.whole cc0_scratch0

/-- What the launch hands the region besides the windows: the scratch at some contents and the generator register. -/
theorem rest_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

end Cert.Kernel.Body

end
-- ==== Proof.KBRunA.lean ====
/-
  The body at a point of the first half of the contraction.

  With the input blocks x (512 rows by 1024 columns of the flattened activations), w (1024 rows of the weights) and
  the bias row in their staging buffers, and the scratch at contents xs, the body computes the partial product x · w,
  narrows it to the scratch's format and stores it over rows [512·i, 512·i + 512) of the scratch. Nothing else
  changes: the inputs are handed back as found, the output's staging buffer as found, and the scratch
  at xs with that one band of rows overwritten. The band is found by running the body.
-/
import proofs.«166904_g2000606664748321_pallasbulk_460_14_alg».proof.Proof.KBShared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The stores the body makes into the scratch at a point of the first half (newest first), with the proof that the
    body runs from the buffers described above to the scratch at xs with those stores written over it. -/
noncomputable def runFirst (c : Dev nD) (i : grid0.Coords) (arg2 : Memref sig .tc .vmem S512x1024 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S4096x2048 .bf16) (harg6 : arg6.IsWhole)
    (hc0 : k0_cond1 i = 1#1) (hc1 : ¬k0_cond2 i = 1#1) (hc2 : ¬k0_cond3 i = 1#1)
    (x0 : Vec F S512x1024 .f32) (x1 : Vec F S1024x2048 .f32) (x2 : Vec F S1x2048 .f32) (xs : Vec F S4096x2048 .bf16) :
    { LS : List (View.Piece (Elt F) S4096x2048 .bf16) //
      ∀ (xo : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xo
                ∗ (arg6.view.loc (c : Thread nD τ) ↦[arg6.view.set]{fullShare} arg6.view.writes (Elt F) (harg6.unread xs) LS)) -∗ K ⟨⟩))
          ⊢ wp frame (wpE (defs₀ (F := F)) Variants.none c none) E (cc0__dense_kernel i arg2 harg2 arg3 harg3 arg4 harg4 arg5 harg5 arg6 harg6) K } := by
  refine ⟨?_, fun xo E K => ?run⟩
  case run =>
    simp only [cc0__dense_kernel_eq_skeleton]; unfold cc0__dense_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexact HS0

end Cert.Kernel.Body

end
-- ==== Proof.KBRunB.lean ====
/-
  The body at a point of the second half of the contraction.

  With the input blocks x, w and the bias row in their staging buffers and the scratch at contents xs, the body
  reads rows [512·i, 512·i + 512) of the scratch, adds the partial product x · w and the bias row repeated down the
  rows, and stores the sum over the whole of the output's staging buffer. The inputs and the scratch are handed back
  as found. The store into the output's buffer is found by running the body.
-/
import proofs.«166904_g2000606664748321_pallasbulk_460_14_alg».proof.Proof.KBRunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The stores the body makes into the output's staging buffer at a point of the second half (newest first), with the
    proof that the body runs from the buffers described above to that buffer with those stores written. -/
noncomputable def runSecond (c : Dev nD) (i : grid0.Coords) (arg2 : Memref sig .tc .vmem S512x1024 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S4096x2048 .bf16) (harg6 : arg6.IsWhole)
    (hc0 : ¬k0_cond1 i = 1#1) (hc1 : ¬k0_cond2 i = 1#1) (hc2 : k0_cond3 i = 1#1)
    (x0 : Vec F S512x1024 .f32) (x1 : Vec F S1024x2048 .f32) (x2 : Vec F S1x2048 .f32) (xs : Vec F S4096x2048 .bf16) :
    { LO : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ owns (c : Thread nD τ) arg6 fullShare xs) -∗ K ⟨⟩))
          ⊢ wp frame (wpE (defs₀ (F := F)) Variants.none c none) E (cc0__dense_kernel i arg2 harg2 arg3 harg3 arg4 harg4 arg5 harg5 arg6 harg6) K } := by
  refine ⟨?_, fun E K => ?run⟩
  case run =>
    simp only [cc0__dense_kernel_eq_skeleton]; unfold cc0__dense_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; isplitr; · ipureintro; exact harg6.read_unread _
    iexact HS0

end Cert.Kernel.Body

end
-- ==== Proof.KBPieces.lean ====
/-
  What the body's stores leave, read at an element.

  After a point of the first half the scratch reads, at row o + a (o the point's row offset) and column b, the
  narrowed partial product at (a, b); at every row outside [o, o + 512) it reads what it read before. After a point
  of the second half the output's staging buffer reads the sum of the band of the scratch at the point's row offset,
  the partial product and the bias row — the body's last payload on the input blocks and that band.
-/
import proofs.«166904_g2000606664748321_pallasbulk_460_14_alg».proof.Proof.KBRunB
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

theorem zeros2 : (![0, 0] : Fin 2 → ℕ) = fun _ => 0 := by
  funext a; match a with | ⟨0, _⟩ => rfl | ⟨1, _⟩ => rfl

/-- Inside the band: the narrowed partial product. -/
theorem scratch_first_in (c : Dev nD) (i : grid0.Coords) (arg2 : Memref sig .tc .vmem S512x1024 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S4096x2048 .bf16) (harg6 : arg6.IsWhole)
    (hc0 : k0_cond1 i = 1#1) (hc1 : ¬k0_cond2 i = 1#1) (hc2 : ¬k0_cond3 i = 1#1)
    (x0 : Vec F S512x1024 .f32) (x1 : Vec F S1024x2048 .f32) (x2 : Vec F S1x2048 .f32) (xs : Vec F S4096x2048 .bf16)
    (y : S4096x2048.Idx) (x : S512x2048.Idx) (o : ℕ) (hoff : k0_off1 i = ![o, 0])
    (h0 : (y (0 : Fin 2)).val = o + (x (0 : Fin 2)).val) (h1 : (y (1 : Fin 2)).val = (x (1 : Fin 2)).val) :
    arg6.view.read (Elt F) (arg6.view.writes (Elt F) (harg6.unread xs)
        (runFirst c i arg2 harg2 arg3 harg3 arg4 harg4 arg5 harg5 arg6 harg6 hc0 hc1 hc2 x0 x1 x2 xs).1) y
      = k0_pay2 x0 x1 x := by
  unfold runFirst; dsimp only
  simp only [View.readAt_eq_ld, harg2.read_unread, harg3.read_unread,
    View.ld_unit_zero (S := S512x1024) zeros2, View.ld_unit_zero (S := S1024x2048) zeros2]
  exact View.read_writes_cons_rows_of_mem arg6.view (harg6.unread xs) _ _ [] y x hoff h0 h1

/-- Outside the band: what was there. -/
theorem scratch_first_out (c : Dev nD) (i : grid0.Coords) (arg2 : Memref sig .tc .vmem S512x1024 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S4096x2048 .bf16) (harg6 : arg6.IsWhole)
    (hc0 : k0_cond1 i = 1#1) (hc1 : ¬k0_cond2 i = 1#1) (hc2 : ¬k0_cond3 i = 1#1)
    (x0 : Vec F S512x1024 .f32) (x1 : Vec F S1024x2048 .f32) (x2 : Vec F S1x2048 .f32) (xs : Vec F S4096x2048 .bf16)
    (y : S4096x2048.Idx) (o : ℕ) (hoff : k0_off1 i = ![o, 0])
    (h : (y (0 : Fin 2)).val < o ∨ o + 512 ≤ (y (0 : Fin 2)).val) :
    arg6.view.read (Elt F) (arg6.view.writes (Elt F) (harg6.unread xs)
        (runFirst c i arg2 harg2 arg3 harg3 arg4 harg4 arg5 harg5 arg6 harg6 hc0 hc1 hc2 x0 x1 x2 xs).1) y
      = xs y := by
  unfold runFirst; dsimp only
  refine (View.read_writes_cons_rows_of_not_mem arg6.view (harg6.unread xs) _ _ [] y hoff (W := 512) rfl h).trans ?_
  rw [View.writes_nil, harg6.read_unread]

/-- The output's staging buffer after a point of the second half, whatever it held before. -/
theorem out_second (c : Dev nD) (i : grid0.Coords) (arg2 : Memref sig .tc .vmem S512x1024 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S4096x2048 .bf16) (harg6 : arg6.IsWhole)
    (hc0 : ¬k0_cond1 i = 1#1) (hc1 : ¬k0_cond2 i = 1#1) (hc2 : k0_cond3 i = 1#1)
    (x0 : Vec F S512x1024 .f32) (x1 : Vec F S1024x2048 .f32) (x2 : Vec F S1x2048 .f32) (xs : Vec F S4096x2048 .bf16)
    (f : arg5.view.ty.Contents (Elt F)) :
    arg5.view.read (Elt F) (arg5.view.writes (Elt F) f
        (runSecond c i arg2 harg2 arg3 harg3 arg4 harg4 arg5 harg5 arg6 harg6 hc0 hc1 hc2 x0 x1 x2 xs).1)
      = k0_pay4 x0 x1 (View.ld xs (Rect.unit (s := S4096x2048) (k0_off3 i) S512x2048.size (k0_off3_inb i hc2))) x2 := by
  unfold runSecond; dsimp only
  simp only [View.readAt_eq_ld, harg2.read_unread, harg3.read_unread, harg4.read_unread, harg6.read_unread,
    View.ld_unit_zero (S := S512x1024) zeros2, View.ld_unit_zero (S := S1024x2048) zeros2,
    View.ld_unit_zero (S := S1x2048) zeros2]
  funext y
  exact View.read_writes_cons_unit_of_mem (off' := ![0, 0]) arg5.view f _ _ [] y y rfl
    (Fin.forall_fin_two.mpr ⟨(Nat.zero_add _).symm, (Nat.zero_add _).symm⟩)

/-- The band of rows [o, o + 512) of the scratch, loaded whole, is any function that the scratch agrees with there. -/
theorem band_eq (xs : Vec F S4096x2048 .bf16) (off : Fin 2 → ℕ) (inb : ∀ a, off a + S512x2048.size a ≤ S4096x2048.size a)
    (o : ℕ) (hoff : off = ![o, 0]) (P : S512x2048.Idx → Elt F .bf16)
    (h : ∀ (y : S4096x2048.Idx) (x : S512x2048.Idx), (y (0 : Fin 2)).val = o + (x (0 : Fin 2)).val →
      (y (1 : Fin 2)).val = (x (1 : Fin 2)).val → xs y = P x) :
    View.ld xs (Rect.unit (s := S4096x2048) off S512x2048.size inb) = P := by
  subst hoff
  funext x
  refine h _ x ?_ ?_
  · show o + 1 * (x (0 : Fin 2)).val = _
    rw [Nat.one_mul]
  · show 0 + 1 * (x (1 : Fin 2)).val = _
    rw [Nat.one_mul, Nat.zero_add]

end Cert.Kernel.Body

end
-- ==== Proof.KBData.lean ====
/-
  The proof data of the dense kernel's pipeline, and the body at every point.

  Write s for a point of the first half (s < 8: the row block) and t for a point of the second half (8 ≤ t; its row
  block is t - 8). The scratch is filled one band of 512 rows per point of the first half: after the points before n,
  rows [512·s, 512·s + 512) hold the narrowed first partial product of row block s, for every s < min n 8; the other
  rows hold whatever they held. That statement about the scratch — existential in its contents, exact on the bands
  already written — is the invariant carried from point to point. At a point t of the second half the body adds,
  to band t - 8 of the scratch, the second partial product and the bias row, and stores that into the output's staging
  buffer, which the pipeline writes back as block t - 8 of the result; during the first half the output window is idle.
-/
import proofs.«166904_g2000606664748321_pallasbulk_460_14_alg».proof.Proof.KBPieces
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of the first half with the same row block as the point t of the second half. -/
def early (t : Fin cfg0.N) : Fin cfg0.N := ⟨t.val - 8, lt_of_le_of_lt (Nat.sub_le _ _) t.isLt⟩

/-- The narrowed first partial product of the row block of point s: what that point stores into its band. -/
def part0 (c : Dev nD) (s : Fin cfg0.N) : Vec F S512x2048 .bf16 := k0_pay2 (iblk m c 0 s) (iblk m c 1 s)

/-- What a point t of the second half leaves in the output's staging buffer. -/
def outAt (c : Dev nD) (t : Fin cfg0.N) : Vec F S512x2048 .f32 :=
  k0_pay4 (iblk m c 0 t) (iblk m c 1 t) (part0 m c (early t)) (iblk m c 2 t)

/-- Contents d of the scratch have the bands of the row blocks s < min n 8 filled. -/
def Filled (c : Dev nD) (n : ℕ) (d : Vec F S4096x2048 .bf16) : Prop :=
  ∀ (y : S4096x2048.Idx) (s : Fin cfg0.N) (x : S512x2048.Idx), s.val < n → s.val < 8 →
    (y (0 : Fin 2)).val = 512 * s.val + (x (0 : Fin 2)).val → (y (1 : Fin 2)).val = (x (1 : Fin 2)).val →
    d y = part0 m c s x

/-- The invariant before point n: the scratch at some contents with the bands below n filled, and the generator register. -/
def PhiK (c : Dev nD) (n : ℕ) : sProp 𝕄 :=
  iprop(iprop(∃ d, ⌜Filled m c n d⌝ ∗ owns (c : Thread nD τ) scr fullShare d) ∗ (∃ r, prngReg c r))

/-- A point of the first half fills its own band and keeps the earlier ones. -/
theorem filled_first (c : Dev nD) (t : Fin cfg0.N) (h0 : t.val < 8) (d : Vec F S4096x2048 .bf16) (hd : Filled m c t.val d)
    (hc0 : k0_cond1 (grid0.coords t) = 1#1) (hc1 : ¬k0_cond2 (grid0.coords t) = 1#1) (hc2 : ¬k0_cond3 (grid0.coords t) = 1#1) :
    Filled m c (t.val + 1) (scr.view.read (Elt F) (scr.view.writes (Elt F) ((Memref.isWhole_whole cc0_scratch0).unread d)
      (runFirst c (grid0.coords t) (stX t) (hstX t) (stW t) (hstW t) (stB t) (hstB t) (stO t) (hstO t) scr (Memref.isWhole_whole _)
        hc0 hc1 hc2 (iblk m c 0 t) (iblk m c 1 t) (iblk m c 2 t) d).1)) := by
  intro y s x hs hs8 hy0 hy1
  have hoff : k0_off1 (grid0.coords t) = ![512 * t.val, 0] := by
    have := off_first t; rwa [Nat.mod_eq_of_lt h0] at this
  by_cases hst : s.val = t.val
  · obtain rfl : s = t := Fin.ext hst
    exact scratch_first_in c _ _ _ _ _ _ _ _ _ _ _ hc0 hc1 hc2 _ _ _ d y x (512 * s.val) hoff hy0 hy1
  · have hx := idx2_lt0 x
    refine (scratch_first_out c _ _ _ _ _ _ _ _ _ _ _ hc0 hc1 hc2 _ _ _ d y (512 * t.val) hoff (Or.inl ?_)).trans
      (hd y s x (by omega) hs8 hy0 hy1)
    omega

/-- From the second half on every band is filled, so the statement no longer depends on the point. -/
theorem filled_mono (c : Dev nD) (n : ℕ) (hn : 8 ≤ n) (d : Vec F S4096x2048 .bf16) (hd : Filled m c n d) (n' : ℕ) (hn' : 8 ≤ n') :
    Filled m c n' d :=
  fun y s x _ hs8 hy0 hy1 => hd y s x (by omega) hs8 hy0 hy1

/-- At a point of the second half the band the body loads is the first partial product of the point's row block. -/
theorem band_second (c : Dev nD) (t : Fin cfg0.N) (h8 : 8 ≤ t.val) (d : Vec F S4096x2048 .bf16) (hd : Filled m c t.val d)
    (hc2 : k0_cond3 (grid0.coords t) = 1#1) :
    View.ld d (Rect.unit (s := S4096x2048) (k0_off3 (grid0.coords t)) S512x2048.size (k0_off3_inb (grid0.coords t) hc2))
      = part0 m c (early t) := by
  have hN : t.val < 16 := lt_of_lt_of_eq t.isLt (show cfg0.N = 16 from N_0)
  have hoff : k0_off3 (grid0.coords t) = ![512 * (t.val - 8), 0] := by
    have := off_second t
    rwa [show t.val % 8 = t.val - 8 by omega] at this
  exact band_eq d _ _ (512 * (t.val - 8)) hoff _ fun y x hy0 hy1 =>
    hd y (early t) x (by show t.val - 8 < t.val; omega) (by show t.val - 8 < 8; omega) hy0 hy1

/-! ## The proof data -/

/-- The arrays as the region finds them; after the body each input's buffer at its block and the output's at `outAt`;
    the invariant `PhiK`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiK m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiK m c t.val := by
  dsimp only [dats]; simp only [Fin.coe_castSucc]

theorem Phi_succ (c : Dev nD) (t : Fin cfg0.N) : (dats m 0 c).Φ t.succ = PhiK m c (t.val + 1) := rfl

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_o (c : Dev nD) (t : Fin cfg0.N) : (dats m 0 c).after 3 t = outAt m c t := by dsimp only [dats]

/-- Each input's staging buffer holds its block at every point, fetched there or not. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_b (c : Dev nD) (t : Fin cfg0.N) (d) : (dats m 0 c).before 2 t d = iblk m c 2 t :=
  before0_2_of m (dats m 0 c) (A_eq m c 2) (after_b m c) t d

/-! ## The body at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (stX t) fullShare ((dats m 0 c).before 0 t d))
    ∗ (∃ d, owns (c : Thread nD τ) (stW t) fullShare ((dats m 0 c).before 1 t d))
    ∗ (∃ d, owns (c : Thread nD τ) (stB t) fullShare ((dats m 0 c).before 2 t d))
    ∗ (∃ d, owns (c : Thread nD τ) (stO t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point: in the first half the run of `runFirst` on the invariant's scratch, whose band it fills
    (`filled_first`), the idle output handed back as found; in the second half the run of `runSecond`, the band it
    loads being the first partial product of its row block (`band_second`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (dats m 0 c).owesAt () t.succ = (dats m 0 c).owesAt () t.castSucc from rfl]
  rw [Phi_succ, Phi_castSucc]
  unfold PhiK
  have hN : t.val < 16 := lt_of_lt_of_eq t.isLt (show cfg0.N = 16 from N_0)
  rw [show (dats m 0 c).leavesExact 0 t = owns (c : Thread nD τ) (stX t) fullShare ((dats m 0 c).after 0 t) from by
    unfold Dat.leavesExact; rw [live_x t], after_x]
  rw [show (dats m 0 c).leavesExact 1 t = owns (c : Thread nD τ) (stW t) fullShare ((dats m 0 c).after 1 t) from by
    unfold Dat.leavesExact; rw [live_w t], after_w]
  rw [show (dats m 0 c).leavesExact 2 t = owns (c : Thread nD τ) (stB t) fullShare ((dats m 0 c).after 2 t) from by
    unfold Dat.leavesExact; rw [live_b t], after_b]
  by_cases h0 : t.val < 8
  · rw [Dat.leavesExact_idle (dats m 0 c) 3 t (idle_out t h0) (noflush_out t h0)]
    iintro ⟨⟨⟨%d, %hd, HS⟩, Hg⟩, Ho, ⟨%d0, H0⟩, ⟨%d1, H1⟩, ⟨%d2, H2⟩, ⟨%d3, H3⟩⟩
    iapply ((runFirst c (grid0.coords t) _ _ _ _ _ _ _ _ _ _ ((first_half t).mpr h0) (middle_never t)
      (fun h => absurd ((second_half t).mp h) (by omega)) (iblk m c 0 t) (iblk m c 1 t) (iblk m c 2 t) d).2 _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · iexists _; isplitr; swap
        · unfold owns; iexists _; isplitr; swap
          · iexact HS
          ipureintro; rfl
        ipureintro
        exact filled_first m c t h0 d hd _ _ _
      iexact Hg
    isplitl [Ho]; · iexact Ho
    isplitl [H0]; · iexact H0
    isplitl [H1]; · iexact H1
    isplitl [H2]; · iexact H2
    iexists _; iexact H3
  · have h8 : 8 ≤ t.val := by omega
    rw [show (dats m 0 c).leavesExact 3 t = owns (c : Thread nD τ) (stO t) fullShare ((dats m 0 c).after 3 t) from by
      unfold Dat.leavesExact; rw [live_out t h8], after_o]
    iintro ⟨⟨⟨%d, %hd, HS⟩, Hg⟩, Ho, ⟨%d0, H0⟩, ⟨%d1, H1⟩, ⟨%d2, H2⟩, ⟨%d3, H3⟩⟩
    iapply ((runSecond c (grid0.coords t) _ _ _ _ _ _ _ _ _ _ (fun h => h0 ((first_half t).mp h)) (middle_never t)
      ((second_half t).mpr h8) (iblk m c 0 t) (iblk m c 1 t) (iblk m c 2 t) d).2 Set.univ _)
    isplitl [H0]; · iexact H0
    isplitl [H1]; · iexact H1
    isplitl [H2]; · iexact H2
    isplitl [H3]; · iexists _; iexact H3
    isplitl [HS]; · iexact HS
    iintro ⟨H0, H1, H2, ⟨%f3, H3⟩, HS⟩
    isplitl [HS Hg]
    · isplitl [HS]
      · iexists d; isplitr; swap
        · iexact HS
        ipureintro
        exact filled_mono m c t.val h8 d hd (t.val + 1) (by omega)
      iexact Hg
    isplitl [Ho]; · iexact Ho
    isplitl [H0]; · iexact H0
    isplitl [H1]; · iexact H1
    isplitl [H2]; · iexact H2
    unfold owns; iexists _; isplitr; swap
    · iexact H3
    ipureintro
    refine (out_second c _ _ _ _ _ _ _ _ _ _ _ _ _ ((second_half t).mpr h8) _ _ _ d f3).trans ?_
    unfold outAt
    rw [band_second m c t h8 d hd ((second_half t).mpr h8)]

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no band need be filled. -/
theorem hin (c : Dev nD) : Pipeline.ΦA spec0 c ⊢ (dats m 0 c).Φ 0 := by
  rw [show (dats m 0 c).Φ 0 = PhiK m c 0 from rfl, rest_eq]
  unfold PhiK
  iintro ⟨⟨%d, HS⟩, Hg⟩
  isplitl [HS]
  · iexists d; isplitr; swap
    · iexact HS
    ipureintro
    exact fun y s x hs => absurd hs (Nat.not_lt_zero _)
  iexact Hg

/-- After the last point the invariant gives back what the launch handed over, the scratch's contents forgotten. -/
theorem hout (c : Dev nD) : (dats m 0 c).Φ (Fin.last cfg0.N) ⊢ Pipeline.ΦA spec0 c := by
  rw [show (dats m 0 c).Φ (Fin.last cfg0.N) = PhiK m c (Fin.last cfg0.N).val from rfl, rest_eq]
  unfold PhiK
  iintro ⟨⟨%d, %hd, HS⟩, Hg⟩
  isplitl [HS]
  · iexists d; iexact HS
  iexact Hg

/-! ## The run -/

set_option backward.isDefEq.respectTransparency.types false in
/-- Every weakly fair execution of @main terminates, and in every final state each array of the pipeline holds what the
    proof data compute, every other unscoped buffer what the lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KIShared.lean ====
/-
  The grid of the dense kernel and what its body does where.

  The grid has 16 points, numbered t = 8·k + i with k the half of the contraction (0 or 1) and i the block of 512
  rows (0 … 7). At the eight points of the first half (t < 8) the body stores the partial product of its row block
  into rows [512·i, 512·i + 512) of the full-height scratch and leaves the output's staging buffer alone; at the
  eight points of the second half (8 ≤ t) it reads those rows back, adds the second partial product and the bias
  row, and stores the sum into the output's staging buffer. The middle branch (0 < k < 1) is met nowhere.
  The output window is parked on block 0 during the first half and is not written back there.
-/
import proofs.«166904_g2000606664748321_pallasbulk_460_14_alg».proof.Proof.Gen.KernelIdeal.Frame
import proofs.«166904_g2000606664748321_pallasbulk_460_14_alg».proof.Proof.Gen.KernelIdeal.Skeleton
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The first branch (k = 0) is taken exactly at the points t < 8. -/
theorem first_half : ∀ t : Fin cfg0.N, k0_cond1 (grid0.coords t) = 1#1 ↔ t.val < 8 :=
  (by decide +kernel : ∀ t : Fin grid0.N, k0_cond1 (grid0.coords t) = 1#1 ↔ t.val < 8)

/-- The middle branch (0 < k < 1) is taken nowhere. -/
theorem middle_never : ∀ t : Fin cfg0.N, ¬k0_cond2 (grid0.coords t) = 1#1 :=
  (by decide +kernel : ∀ t : Fin grid0.N, ¬k0_cond2 (grid0.coords t) = 1#1)

/-- The last branch (k = 1) is taken exactly at the points 8 ≤ t. -/
theorem second_half : ∀ t : Fin cfg0.N, k0_cond3 (grid0.coords t) = 1#1 ↔ 8 ≤ t.val :=
  (by decide +kernel : ∀ t : Fin grid0.N, k0_cond3 (grid0.coords t) = 1#1 ↔ 8 ≤ t.val)

/-- The three input windows are never idle. -/
theorem live_x : ∀ t : Fin cfg0.N, cfg0.idle 0 (grid0.coords t) = false := by decide +kernel
theorem live_w : ∀ t : Fin cfg0.N, cfg0.idle 1 (grid0.coords t) = false := by decide +kernel
theorem live_b : ∀ t : Fin cfg0.N, cfg0.idle 2 (grid0.coords t) = false := by decide +kernel
/-- The output window is idle in the first half, and not written back there; it is live in the second half. -/
theorem idle_out : ∀ t : Fin cfg0.N, t.val < 8 → cfg0.idle 3 (grid0.coords t) = true := by decide +kernel
theorem noflush_out : ∀ t : Fin cfg0.N, t.val < 8 → (cfg0.win 3).flush t = false := by decide +kernel
theorem live_out : ∀ t : Fin cfg0.N, 8 ≤ t.val → cfg0.idle 3 (grid0.coords t) = false := by decide +kernel
/-- In the second half every point writes its output block back. -/
theorem flush_out : ∀ t : Fin cfg0.N, 8 ≤ t.val → (cfg0.win 3).flush t = true := by decide +kernel

/-- The row offset the body computes at a point of the first half is 512 times the row block. -/
theorem off_first : ∀ t : Fin cfg0.N, k0_off1 (grid0.coords t) = ![512 * (t.val % 8), 0] :=
  (by decide +kernel : ∀ t : Fin grid0.N, k0_off1 (grid0.coords t) = ![512 * (t.val % 8), 0])
/-- And the same at a point of the second half. -/
theorem off_second : ∀ t : Fin cfg0.N, k0_off3 (grid0.coords t) = ![512 * (t.val % 8), 0] :=
  (by decide +kernel : ∀ t : Fin grid0.N, k0_off3 (grid0.coords t) = ![512 * (t.val % 8), 0])

/-- Each window's current staging buffer at point t, as the pipeline passes it to the body. -/
abbrev stX (t : Fin cfg0.N) : Memref sig .tc .vmem S512x1024 .f32 := win0_0.stage (cfg0.slots t 0)
abbrev hstX (t : Fin cfg0.N) : (stX t).IsWhole := hstage0_0 ((cfg0.slots t 0).cast nbuf0_0)
abbrev stW (t : Fin cfg0.N) : Memref sig .tc .vmem S1024x2048 .f32 := win0_1.stage (cfg0.slots t 1)
abbrev hstW (t : Fin cfg0.N) : (stW t).IsWhole := hstage0_1 ((cfg0.slots t 1).cast nbuf0_1)
abbrev stB (t : Fin cfg0.N) : Memref sig .tc .vmem S1x2048 .f32 := win0_2.stage (cfg0.slots t 2)
abbrev hstB (t : Fin cfg0.N) : (stB t).IsWhole := hstage0_2 ((cfg0.slots t 2).cast nbuf0_2)
abbrev stO (t : Fin cfg0.N) : Memref sig .tc .vmem S512x2048 .f32 := win0_3.stage (cfg0.slots t 3)
abbrev hstO (t : Fin cfg0.N) : (stO t).IsWhole := hstage0_3 ((cfg0.slots t 3).cast nbuf0_3)
/-- The full-height scratch, a whole buffer of the kernel's own. -/
abbrev scr : Memref sig .tc .vmem S4096x2048 .bf16 := Memref.whole cc0_scratch0

/-- What the launch hands the region besides the windows: the scratch at some contents and the generator register. -/
theorem rest_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

end Cert.KernelIdeal.Body

end
-- ==== Proof.KIRunA.lean ====
/-
  The body at a point of the first half of the contraction.

  With the input blocks x (512 rows by 1024 columns of the flattened activations), w (1024 rows of the weights) and
  the bias row in their staging buffers, and the scratch at contents xs, the body computes the partial product x · w,
  narrows it to the scratch's format and stores it over rows [512·i, 512·i + 512) of the scratch. Nothing else
  changes: the inputs are handed back as found, the output's staging buffer as found, and the scratch
  at xs with that one band of rows overwritten. The band is found by running the body.
-/
import proofs.«166904_g2000606664748321_pallasbulk_460_14_alg».proof.Proof.KIShared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The stores the body makes into the scratch at a point of the first half (newest first), with the proof that the
    body runs from the buffers described above to the scratch at xs with those stores written over it. -/
noncomputable def runFirst (c : Dev nD) (i : grid0.Coords) (arg2 : Memref sig .tc .vmem S512x1024 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S4096x2048 .bf16) (harg6 : arg6.IsWhole)
    (hc0 : k0_cond1 i = 1#1) (hc1 : ¬k0_cond2 i = 1#1) (hc2 : ¬k0_cond3 i = 1#1)
    (x0 : Vec F S512x1024 .f32) (x1 : Vec F S1024x2048 .f32) (x2 : Vec F S1x2048 .f32) (xs : Vec F S4096x2048 .bf16) :
    { LS : List (View.Piece (Elt F) S4096x2048 .bf16) //
      ∀ (xo : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xo
                ∗ (arg6.view.loc (c : Thread nD τ) ↦[arg6.view.set]{fullShare} arg6.view.writes (Elt F) (harg6.unread xs) LS)) -∗ K ⟨⟩))
          ⊢ wp frame (wpE (defs₀ (F := F)) Variants.none c none) E (cc0__dense_kernel i arg2 harg2 arg3 harg3 arg4 harg4 arg5 harg5 arg6 harg6) K } := by
  refine ⟨?_, fun xo E K => ?run⟩
  case run =>
    simp only [cc0__dense_kernel_eq_skeleton]; unfold cc0__dense_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexact HS0

end Cert.KernelIdeal.Body

end
-- ==== Proof.KIRunB.lean ====
/-
  The body at a point of the second half of the contraction.

  With the input blocks x, w and the bias row in their staging buffers and the scratch at contents xs, the body
  reads rows [512·i, 512·i + 512) of the scratch, adds the partial product x · w and the bias row repeated down the
  rows, and stores the sum over the whole of the output's staging buffer. The inputs and the scratch are handed back
  as found. The store into the output's buffer is found by running the body.
-/
import proofs.«166904_g2000606664748321_pallasbulk_460_14_alg».proof.Proof.KIRunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The stores the body makes into the output's staging buffer at a point of the second half (newest first), with the
    proof that the body runs from the buffers described above to that buffer with those stores written. -/
noncomputable def runSecond (c : Dev nD) (i : grid0.Coords) (arg2 : Memref sig .tc .vmem S512x1024 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S4096x2048 .bf16) (harg6 : arg6.IsWhole)
    (hc0 : ¬k0_cond1 i = 1#1) (hc1 : ¬k0_cond2 i = 1#1) (hc2 : k0_cond3 i = 1#1)
    (x0 : Vec F S512x1024 .f32) (x1 : Vec F S1024x2048 .f32) (x2 : Vec F S1x2048 .f32) (xs : Vec F S4096x2048 .bf16) :
    { LO : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ owns (c : Thread nD τ) arg6 fullShare xs) -∗ K ⟨⟩))
          ⊢ wp frame (wpE (defs₀ (F := F)) Variants.none c none) E (cc0__dense_kernel i arg2 harg2 arg3 harg3 arg4 harg4 arg5 harg5 arg6 harg6) K } := by
  refine ⟨?_, fun E K => ?run⟩
  case run =>
    simp only [cc0__dense_kernel_eq_skeleton]; unfold cc0__dense_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; isplitr; · ipureintro; exact harg6.read_unread _
    iexact HS0

end Cert.KernelIdeal.Body

end
-- ==== Proof.KIPieces.lean ====
/-
  What the body's stores leave, read at an element.

  After a point of the first half the scratch reads, at row o + a (o the point's row offset) and column b, the
  narrowed partial product at (a, b); at every row outside [o, o + 512) it reads what it read before. After a point
  of the second half the output's staging buffer reads the sum of the band of the scratch at the point's row offset,
  the partial product and the bias row — the body's last payload on the input blocks and that band.
-/
import proofs.«166904_g2000606664748321_pallasbulk_460_14_alg».proof.Proof.KIRunB
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

theorem zeros2 : (![0, 0] : Fin 2 → ℕ) = fun _ => 0 := by
  funext a; match a with | ⟨0, _⟩ => rfl | ⟨1, _⟩ => rfl

/-- Inside the band: the narrowed partial product. -/
theorem scratch_first_in (c : Dev nD) (i : grid0.Coords) (arg2 : Memref sig .tc .vmem S512x1024 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S4096x2048 .bf16) (harg6 : arg6.IsWhole)
    (hc0 : k0_cond1 i = 1#1) (hc1 : ¬k0_cond2 i = 1#1) (hc2 : ¬k0_cond3 i = 1#1)
    (x0 : Vec F S512x1024 .f32) (x1 : Vec F S1024x2048 .f32) (x2 : Vec F S1x2048 .f32) (xs : Vec F S4096x2048 .bf16)
    (y : S4096x2048.Idx) (x : S512x2048.Idx) (o : ℕ) (hoff : k0_off1 i = ![o, 0])
    (h0 : (y (0 : Fin 2)).val = o + (x (0 : Fin 2)).val) (h1 : (y (1 : Fin 2)).val = (x (1 : Fin 2)).val) :
    arg6.view.read (Elt F) (arg6.view.writes (Elt F) (harg6.unread xs)
        (runFirst c i arg2 harg2 arg3 harg3 arg4 harg4 arg5 harg5 arg6 harg6 hc0 hc1 hc2 x0 x1 x2 xs).1) y
      = k0_pay2 x0 x1 x := by
  unfold runFirst; dsimp only
  simp only [View.readAt_eq_ld, harg2.read_unread, harg3.read_unread,
    View.ld_unit_zero (S := S512x1024) zeros2, View.ld_unit_zero (S := S1024x2048) zeros2]
  exact View.read_writes_cons_rows_of_mem arg6.view (harg6.unread xs) _ _ [] y x hoff h0 h1

/-- Outside the band: what was there. -/
theorem scratch_first_out (c : Dev nD) (i : grid0.Coords) (arg2 : Memref sig .tc .vmem S512x1024 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S4096x2048 .bf16) (harg6 : arg6.IsWhole)
    (hc0 : k0_cond1 i = 1#1) (hc1 : ¬k0_cond2 i = 1#1) (hc2 : ¬k0_cond3 i = 1#1)
    (x0 : Vec F S512x1024 .f32) (x1 : Vec F S1024x2048 .f32) (x2 : Vec F S1x2048 .f32) (xs : Vec F S4096x2048 .bf16)
    (y : S4096x2048.Idx) (o : ℕ) (hoff : k0_off1 i = ![o, 0])
    (h : (y (0 : Fin 2)).val < o ∨ o + 512 ≤ (y (0 : Fin 2)).val) :
    arg6.view.read (Elt F) (arg6.view.writes (Elt F) (harg6.unread xs)
        (runFirst c i arg2 harg2 arg3 harg3 arg4 harg4 arg5 harg5 arg6 harg6 hc0 hc1 hc2 x0 x1 x2 xs).1) y
      = xs y := by
  unfold runFirst; dsimp only
  refine (View.read_writes_cons_rows_of_not_mem arg6.view (harg6.unread xs) _ _ [] y hoff (W := 512) rfl h).trans ?_
  rw [View.writes_nil, harg6.read_unread]

/-- The output's staging buffer after a point of the second half, whatever it held before. -/
theorem out_second (c : Dev nD) (i : grid0.Coords) (arg2 : Memref sig .tc .vmem S512x1024 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S4096x2048 .bf16) (harg6 : arg6.IsWhole)
    (hc0 : ¬k0_cond1 i = 1#1) (hc1 : ¬k0_cond2 i = 1#1) (hc2 : k0_cond3 i = 1#1)
    (x0 : Vec F S512x1024 .f32) (x1 : Vec F S1024x2048 .f32) (x2 : Vec F S1x2048 .f32) (xs : Vec F S4096x2048 .bf16)
    (f : arg5.view.ty.Contents (Elt F)) :
    arg5.view.read (Elt F) (arg5.view.writes (Elt F) f
        (runSecond c i arg2 harg2 arg3 harg3 arg4 harg4 arg5 harg5 arg6 harg6 hc0 hc1 hc2 x0 x1 x2 xs).1)
      = k0_pay4 x0 x1 (View.ld xs (Rect.unit (s := S4096x2048) (k0_off3 i) S512x2048.size (k0_off3_inb i hc2))) x2 := by
  unfold runSecond; dsimp only
  simp only [View.readAt_eq_ld, harg2.read_unread, harg3.read_unread, harg4.read_unread, harg6.read_unread,
    View.ld_unit_zero (S := S512x1024) zeros2, View.ld_unit_zero (S := S1024x2048) zeros2,
    View.ld_unit_zero (S := S1x2048) zeros2]
  funext y
  exact View.read_writes_cons_unit_of_mem (off' := ![0, 0]) arg5.view f _ _ [] y y rfl
    (Fin.forall_fin_two.mpr ⟨(Nat.zero_add _).symm, (Nat.zero_add _).symm⟩)

/-- The band of rows [o, o + 512) of the scratch, loaded whole, is any function that the scratch agrees with there. -/
theorem band_eq (xs : Vec F S4096x2048 .bf16) (off : Fin 2 → ℕ) (inb : ∀ a, off a + S512x2048.size a ≤ S4096x2048.size a)
    (o : ℕ) (hoff : off = ![o, 0]) (P : S512x2048.Idx → Elt F .bf16)
    (h : ∀ (y : S4096x2048.Idx) (x : S512x2048.Idx), (y (0 : Fin 2)).val = o + (x (0 : Fin 2)).val →
      (y (1 : Fin 2)).val = (x (1 : Fin 2)).val → xs y = P x) :
    View.ld xs (Rect.unit (s := S4096x2048) off S512x2048.size inb) = P := by
  subst hoff
  funext x
  refine h _ x ?_ ?_
  · show o + 1 * (x (0 : Fin 2)).val = _
    rw [Nat.one_mul]
  · show 0 + 1 * (x (1 : Fin 2)).val = _
    rw [Nat.one_mul, Nat.zero_add]

end Cert.KernelIdeal.Body

end
-- ==== Proof.KIData.lean ====
/-
  The proof data of the dense kernel's pipeline, and the body at every point.

  Write s for a point of the first half (s < 8: the row block) and t for a point of the second half (8 ≤ t; its row
  block is t - 8). The scratch is filled one band of 512 rows per point of the first half: after the points before n,
  rows [512·s, 512·s + 512) hold the narrowed first partial product of row block s, for every s < min n 8; the other
  rows hold whatever they held. That statement about the scratch — existential in its contents, exact on the bands
  already written — is the invariant carried from point to point. At a point t of the second half the body adds,
  to band t - 8 of the scratch, the second partial product and the bias row, and stores that into the output's staging
  buffer, which the pipeline writes back as block t - 8 of the result; during the first half the output window is idle.
-/
import proofs.«166904_g2000606664748321_pallasbulk_460_14_alg».proof.Proof.KIPieces
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of the first half with the same row block as the point t of the second half. -/
def early (t : Fin cfg0.N) : Fin cfg0.N := ⟨t.val - 8, lt_of_le_of_lt (Nat.sub_le _ _) t.isLt⟩

/-- The narrowed first partial product of the row block of point s: what that point stores into its band. -/
def part0 (c : Dev nD) (s : Fin cfg0.N) : Vec F S512x2048 .bf16 := k0_pay2 (iblk m c 0 s) (iblk m c 1 s)

/-- What a point t of the second half leaves in the output's staging buffer. -/
def outAt (c : Dev nD) (t : Fin cfg0.N) : Vec F S512x2048 .f32 :=
  k0_pay4 (iblk m c 0 t) (iblk m c 1 t) (part0 m c (early t)) (iblk m c 2 t)

/-- Contents d of the scratch have the bands of the row blocks s < min n 8 filled. -/
def Filled (c : Dev nD) (n : ℕ) (d : Vec F S4096x2048 .bf16) : Prop :=
  ∀ (y : S4096x2048.Idx) (s : Fin cfg0.N) (x : S512x2048.Idx), s.val < n → s.val < 8 →
    (y (0 : Fin 2)).val = 512 * s.val + (x (0 : Fin 2)).val → (y (1 : Fin 2)).val = (x (1 : Fin 2)).val →
    d y = part0 m c s x

/-- The invariant before point n: the scratch at some contents with the bands below n filled, and the generator register. -/
def PhiK (c : Dev nD) (n : ℕ) : sProp 𝕄 :=
  iprop(iprop(∃ d, ⌜Filled m c n d⌝ ∗ owns (c : Thread nD τ) scr fullShare d) ∗ (∃ r, prngReg c r))

/-- A point of the first half fills its own band and keeps the earlier ones. -/
theorem filled_first (c : Dev nD) (t : Fin cfg0.N) (h0 : t.val < 8) (d : Vec F S4096x2048 .bf16) (hd : Filled m c t.val d)
    (hc0 : k0_cond1 (grid0.coords t) = 1#1) (hc1 : ¬k0_cond2 (grid0.coords t) = 1#1) (hc2 : ¬k0_cond3 (grid0.coords t) = 1#1) :
    Filled m c (t.val + 1) (scr.view.read (Elt F) (scr.view.writes (Elt F) ((Memref.isWhole_whole cc0_scratch0).unread d)
      (runFirst c (grid0.coords t) (stX t) (hstX t) (stW t) (hstW t) (stB t) (hstB t) (stO t) (hstO t) scr (Memref.isWhole_whole _)
        hc0 hc1 hc2 (iblk m c 0 t) (iblk m c 1 t) (iblk m c 2 t) d).1)) := by
  intro y s x hs hs8 hy0 hy1
  have hoff : k0_off1 (grid0.coords t) = ![512 * t.val, 0] := by
    have := off_first t; rwa [Nat.mod_eq_of_lt h0] at this
  by_cases hst : s.val = t.val
  · obtain rfl : s = t := Fin.ext hst
    exact scratch_first_in c _ _ _ _ _ _ _ _ _ _ _ hc0 hc1 hc2 _ _ _ d y x (512 * s.val) hoff hy0 hy1
  · have hx := idx2_lt0 x
    refine (scratch_first_out c _ _ _ _ _ _ _ _ _ _ _ hc0 hc1 hc2 _ _ _ d y (512 * t.val) hoff (Or.inl ?_)).trans
      (hd y s x (by omega) hs8 hy0 hy1)
    omega

/-- From the second half on every band is filled, so the statement no longer depends on the point. -/
theorem filled_mono (c : Dev nD) (n : ℕ) (hn : 8 ≤ n) (d : Vec F S4096x2048 .bf16) (hd : Filled m c n d) (n' : ℕ) (hn' : 8 ≤ n') :
    Filled m c n' d :=
  fun y s x _ hs8 hy0 hy1 => hd y s x (by omega) hs8 hy0 hy1

/-- At a point of the second half the band the body loads is the first partial product of the point's row block. -/
theorem band_second (c : Dev nD) (t : Fin cfg0.N) (h8 : 8 ≤ t.val) (d : Vec F S4096x2048 .bf16) (hd : Filled m c t.val d)
    (hc2 : k0_cond3 (grid0.coords t) = 1#1) :
    View.ld d (Rect.unit (s := S4096x2048) (k0_off3 (grid0.coords t)) S512x2048.size (k0_off3_inb (grid0.coords t) hc2))
      = part0 m c (early t) := by
  have hN : t.val < 16 := lt_of_lt_of_eq t.isLt (show cfg0.N = 16 from N_0)
  have hoff : k0_off3 (grid0.coords t) = ![512 * (t.val - 8), 0] := by
    have := off_second t
    rwa [show t.val % 8 = t.val - 8 by omega] at this
  exact band_eq d _ _ (512 * (t.val - 8)) hoff _ fun y x hy0 hy1 =>
    hd y (early t) x (by show t.val - 8 < t.val; omega) (by show t.val - 8 < 8; omega) hy0 hy1

/-! ## The proof data -/

/-- The arrays as the region finds them; after the body each input's buffer at its block and the output's at `outAt`;
    the invariant `PhiK`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiK m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiK m c t.val := by
  dsimp only [dats]; simp only [Fin.coe_castSucc]

theorem Phi_succ (c : Dev nD) (t : Fin cfg0.N) : (dats m 0 c).Φ t.succ = PhiK m c (t.val + 1) := rfl

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_o (c : Dev nD) (t : Fin cfg0.N) : (dats m 0 c).after 3 t = outAt m c t := by dsimp only [dats]

/-- Each input's staging buffer holds its block at every point, fetched there or not. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_b (c : Dev nD) (t : Fin cfg0.N) (d) : (dats m 0 c).before 2 t d = iblk m c 2 t :=
  before0_2_of m (dats m 0 c) (A_eq m c 2) (after_b m c) t d

/-! ## The body at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (stX t) fullShare ((dats m 0 c).before 0 t d))
    ∗ (∃ d, owns (c : Thread nD τ) (stW t) fullShare ((dats m 0 c).before 1 t d))
    ∗ (∃ d, owns (c : Thread nD τ) (stB t) fullShare ((dats m 0 c).before 2 t d))
    ∗ (∃ d, owns (c : Thread nD τ) (stO t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point: in the first half the run of `runFirst` on the invariant's scratch, whose band it fills
    (`filled_first`), the idle output handed back as found; in the second half the run of `runSecond`, the band it
    loads being the first partial product of its row block (`band_second`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (dats m 0 c).owesAt () t.succ = (dats m 0 c).owesAt () t.castSucc from rfl]
  rw [Phi_succ, Phi_castSucc]
  unfold PhiK
  have hN : t.val < 16 := lt_of_lt_of_eq t.isLt (show cfg0.N = 16 from N_0)
  rw [show (dats m 0 c).leavesExact 0 t = owns (c : Thread nD τ) (stX t) fullShare ((dats m 0 c).after 0 t) from by
    unfold Dat.leavesExact; rw [live_x t], after_x]
  rw [show (dats m 0 c).leavesExact 1 t = owns (c : Thread nD τ) (stW t) fullShare ((dats m 0 c).after 1 t) from by
    unfold Dat.leavesExact; rw [live_w t], after_w]
  rw [show (dats m 0 c).leavesExact 2 t = owns (c : Thread nD τ) (stB t) fullShare ((dats m 0 c).after 2 t) from by
    unfold Dat.leavesExact; rw [live_b t], after_b]
  by_cases h0 : t.val < 8
  · rw [Dat.leavesExact_idle (dats m 0 c) 3 t (idle_out t h0) (noflush_out t h0)]
    iintro ⟨⟨⟨%d, %hd, HS⟩, Hg⟩, Ho, ⟨%d0, H0⟩, ⟨%d1, H1⟩, ⟨%d2, H2⟩, ⟨%d3, H3⟩⟩
    iapply ((runFirst c (grid0.coords t) _ _ _ _ _ _ _ _ _ _ ((first_half t).mpr h0) (middle_never t)
      (fun h => absurd ((second_half t).mp h) (by omega)) (iblk m c 0 t) (iblk m c 1 t) (iblk m c 2 t) d).2 _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · iexists _; isplitr; swap
        · unfold owns; iexists _; isplitr; swap
          · iexact HS
          ipureintro; rfl
        ipureintro
        exact filled_first m c t h0 d hd _ _ _
      iexact Hg
    isplitl [Ho]; · iexact Ho
    isplitl [H0]; · iexact H0
    isplitl [H1]; · iexact H1
    isplitl [H2]; · iexact H2
    iexists _; iexact H3
  · have h8 : 8 ≤ t.val := by omega
    rw [show (dats m 0 c).leavesExact 3 t = owns (c : Thread nD τ) (stO t) fullShare ((dats m 0 c).after 3 t) from by
      unfold Dat.leavesExact; rw [live_out t h8], after_o]
    iintro ⟨⟨⟨%d, %hd, HS⟩, Hg⟩, Ho, ⟨%d0, H0⟩, ⟨%d1, H1⟩, ⟨%d2, H2⟩, ⟨%d3, H3⟩⟩
    iapply ((runSecond c (grid0.coords t) _ _ _ _ _ _ _ _ _ _ (fun h => h0 ((first_half t).mp h)) (middle_never t)
      ((second_half t).mpr h8) (iblk m c 0 t) (iblk m c 1 t) (iblk m c 2 t) d).2 Set.univ _)
    isplitl [H0]; · iexact H0
    isplitl [H1]; · iexact H1
    isplitl [H2]; · iexact H2
    isplitl [H3]; · iexists _; iexact H3
    isplitl [HS]; · iexact HS
    iintro ⟨H0, H1, H2, ⟨%f3, H3⟩, HS⟩
    isplitl [HS Hg]
    · isplitl [HS]
      · iexists d; isplitr; swap
        · iexact HS
        ipureintro
        exact filled_mono m c t.val h8 d hd (t.val + 1) (by omega)
      iexact Hg
    isplitl [Ho]; · iexact Ho
    isplitl [H0]; · iexact H0
    isplitl [H1]; · iexact H1
    isplitl [H2]; · iexact H2
    unfold owns; iexists _; isplitr; swap
    · iexact H3
    ipureintro
    refine (out_second c _ _ _ _ _ _ _ _ _ _ _ _ _ ((second_half t).mpr h8) _ _ _ d f3).trans ?_
    unfold outAt
    rw [band_second m c t h8 d hd ((second_half t).mpr h8)]

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no band need be filled. -/
theorem hin (c : Dev nD) : Pipeline.ΦA spec0 c ⊢ (dats m 0 c).Φ 0 := by
  rw [show (dats m 0 c).Φ 0 = PhiK m c 0 from rfl, rest_eq]
  unfold PhiK
  iintro ⟨⟨%d, HS⟩, Hg⟩
  isplitl [HS]
  · iexists d; isplitr; swap
    · iexact HS
    ipureintro
    exact fun y s x hs => absurd hs (Nat.not_lt_zero _)
  iexact Hg

/-- After the last point the invariant gives back what the launch handed over, the scratch's contents forgotten. -/
theorem hout (c : Dev nD) : (dats m 0 c).Φ (Fin.last cfg0.N) ⊢ Pipeline.ΦA spec0 c := by
  rw [show (dats m 0 c).Φ (Fin.last cfg0.N) = PhiK m c (Fin.last cfg0.N).val from rfl, rest_eq]
  unfold PhiK
  iintro ⟨⟨%d, %hd, HS⟩, Hg⟩
  isplitl [HS]
  · iexists d; iexact HS
  iexact Hg

/-! ## The run -/

set_option backward.isDefEq.respectTransparency.types false in
/-- Every weakly fair execution of @main terminates, and in every final state each array of the pipeline holds what the
    proof data compute, every other unscoped buffer what the lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.Spec.lean ====
/-
  The dense layer both programs compute, as one function of the argument arrays.

  With the activations flattened to a [4096, 2048] matrix `x`, the weights `w` of shape [2048, 2048] and the bias row
  `b` of shape [1, 2048], entry (r, c) of the result is the inner product of row r of `x` with column c of `w`,
  plus the bias entry c. On the extended reals the sum is over all 2048 contracted coordinates at once; how a
  program groups that sum (in two halves of 1024, or in four quarters of 512 added to a zero start) does not
  matter, since only associativity and commutativity of the addition are used.
-/
import Idealize.ShloMosaic.PureOps.Ideal
import Idealize.ShloMosaic.Lib.ValueIdx
import proofs.«166904_g2000606664748321_pallasbulk_460_14_alg».proof.Proof.LibGroupedSum

noncomputable section

open scoped BigOperators

namespace Cert.DenseSpec

open Idealize.ShloMosaic Idealize.ShloMosaic.ValueIdx

/-- Entry (r, c) of x · w + b. -/
def dense (x : (⟨2, ![4096, 2048]⟩ : Shape).Idx → EReal) (w : (⟨2, ![2048, 2048]⟩ : Shape).Idx → EReal)
    (b : (⟨2, ![1, 2048]⟩ : Shape).Idx → EReal) : (⟨2, ![4096, 2048]⟩ : Shape).Idx → EReal :=
  fun j => (∑ k : Fin 2048, x (ix2 (j 0) k) * w (ix2 k (j 1))) + b (ix2 (0 : Fin 1) (j 1))

/-- The whole program's result on the [8, 512, 2048] activations: the two leading axes flattened to 4096 rows,
    the product-plus-bias of `dense`, and the rows folded back. -/
def denseOut (h1 : (⟨3, ![8, 512, 2048]⟩ : Shape).ShapeCasts ⟨2, ![4096, 2048]⟩)
    (h2 : (⟨2, ![4096, 2048]⟩ : Shape).ShapeCasts ⟨3, ![8, 512, 2048]⟩)
    (x : (⟨3, ![8, 512, 2048]⟩ : Shape).Idx → EReal) (w : (⟨2, ![2048, 2048]⟩ : Shape).Idx → EReal)
    (b : (⟨2, ![1, 2048]⟩ : Shape).Idx → EReal) : (⟨3, ![8, 512, 2048]⟩ : Shape).Idx → EReal :=
  shapeCast _ (dense (shapeCast _ x h1) w b) h2

/-- The contraction in two halves: the first 1024 coordinates, then the last 1024. -/
theorem sum_halves (f : Fin 2048 → EReal) :
    ∑ k : Fin 2048, f k
      = (∑ k : Fin 1024, f ⟨0 * 1024 + k.val, GroupedSum.group_lt (J := 2) (by norm_num) 0 k⟩)
        + ∑ k : Fin 1024, f ⟨1 * 1024 + k.val, GroupedSum.group_lt (J := 2) (by norm_num) 1 k⟩ := by
  rw [GroupedSum.sum_groups (J := 2) (B := 1024) (by norm_num) f, Fin.sum_univ_two]
  rfl

/-- The contraction in four quarters of 512 coordinates, added one after the other to a zero start. -/
theorem sum_quarters (f : Fin 2048 → EReal) :
    ∑ k : Fin 2048, f k
      = ((((0 : EReal) + ∑ k : Fin 512, f ⟨0 * 512 + k.val, GroupedSum.group_lt (J := 4) (by norm_num) 0 k⟩)
          + ∑ k : Fin 512, f ⟨1 * 512 + k.val, GroupedSum.group_lt (J := 4) (by norm_num) 1 k⟩)
          + ∑ k : Fin 512, f ⟨2 * 512 + k.val, GroupedSum.group_lt (J := 4) (by norm_num) 2 k⟩)
          + ∑ k : Fin 512, f ⟨3 * 512 + k.val, GroupedSum.group_lt (J := 4) (by norm_num) 3 k⟩ := by
  rw [GroupedSum.sum_groups (J := 4) (B := 512) (by norm_num) f, Fin.sum_univ_four, zero_add]
  rfl

end Cert.DenseSpec

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«166904_g2000606664748321_pallasbulk_460_14_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.KIValue.lean ====
/-
  What the dense kernel's result array holds, at the exact extended reals.

  At a point t of the second half (8 ≤ t, row block r = t - 8) the body stores, at entry (p, q) of the output block,

      (Σ_{k < 1024} x (512 r + p, k) · w (k, q))  +  (Σ_{k < 1024} x (512 r + p, 1024 + k) · w (1024 + k, q))  +  b (0, q):

  the first sum is what point r of the first half left in band r of the scratch (the narrowing to the scratch's format
  and back is the identity on the extended reals), the second is the point's own partial product, and the last is the
  bias row. Splitting the contraction over all 2048 coordinates into its two halves shows that this is entry
  (512 r + p, q) of x · w + b. The output blocks of the second half tile the result array (row i belongs to the block of
  point 8 + i / 512), so the array ends holding x · w + b; the reshapes before and after the region flatten and restore
  the two leading axes of the activations.
-/
import proofs.«166904_g2000606664748321_pallasbulk_460_14_alg».proof.Proof.KIData
import proofs.«166904_g2000606664748321_pallasbulk_460_14_alg».proof.Proof.Spec
import proofs.«166904_g2000606664748321_pallasbulk_460_14_alg».proof.Proof.LibDotRecord
import Idealize.ShloMosaic.Lib.Pipeline.Value
import Idealize.ShloMosaic.Lib.StableHlo.Run
import Idealize.ShloMosaic.PureOps.Ideal.Laws

set_option maxRecDepth 16384

noncomputable section

namespace Cert.KernelIdeal.DenseValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.KernelIdeal Cert.KernelIdeal.Gen Cert.KernelIdeal.Body

/-! ## The payloads at an entry -/

/-- A partial product at entry (p, q): the sum over the block's 1024 contracted coordinates. -/
theorem partial_apply (x : Vec Ideal S512x1024 .f32) (w : Vec Ideal S1024x2048 .f32) (p : Fin 512) (q : Fin 2048) :
    k0_pay1 (F := Ideal) x w (ix2 p q) = ∑ k : Fin 1024, x (ix2 p k) * w (ix2 k q) := by
  unfold k0_pay1
  rw [shapeCast_self]
  exact DotRecord.matmul_zero_apply dot_S512x1024_S1024x2048_S512x2048_1_0_0_1_n_n rfl rfl rfl rfl rfl rfl x w none p q

/-- What a point of the first half stores: the same sum (narrowing is the identity on the extended reals). -/
theorem stored_apply (x : Vec Ideal S512x1024 .f32) (w : Vec Ideal S1024x2048 .f32) (p : Fin 512) (q : Fin 2048) :
    k0_pay2 (F := Ideal) x w (ix2 p q) = ∑ k : Fin 1024, x (ix2 p k) * w (ix2 k q) := by
  unfold k0_pay2
  rw [shapeCast_self]
  exact partial_apply x w p q

/-- What a point of the second half stores, over the band the first half left. -/
theorem out_apply (x' : Vec Ideal S512x1024 .f32) (w' : Vec Ideal S1024x2048 .f32) (x : Vec Ideal S512x1024 .f32)
    (w : Vec Ideal S1024x2048 .f32) (b : Vec Ideal S1x2048 .f32) (p : Fin 512) (q : Fin 2048) :
    k0_pay4 (F := Ideal) x' w' (k0_pay2 x w) b (ix2 p q)
      = ((∑ k : Fin 1024, x (ix2 p k) * w (ix2 k q)) + ∑ k : Fin 1024, x' (ix2 p k) * w' (ix2 k q))
        + b (ix2 (0 : Fin 1) q) := by
  unfold k0_pay4
  show (k0_pay2 x w (ix2 p q) + k0_pay1 x' w' (ix2 p q))
      + broadcastTo S512x2048 b broadcasts_S1x2048_S512x2048 (ix2 p q) = _
  rw [stored_apply, partial_apply, DotRecord.broadcastTo_1b_ab_apply]

/-- ONE OUTPUT BLOCK. If the five blocks the second-half point of row block r works on are the parts of the arrays
    v0 (activations), w1 (weights), b2 (bias) that the index maps name — the first-half blocks at columns / rows
    [0, 1024), the second-half blocks at [1024, 2048), rows [512 r, 512 r + 512) of the activations — then the stored block
    is the part of x · w + b at those rows. -/
theorem block_eq (v0 : (⟨2, ![4096, 2048]⟩ : Shape).Idx → EReal) (w1 : (⟨2, ![2048, 2048]⟩ : Shape).Idx → EReal)
    (b2 : (⟨2, ![1, 2048]⟩ : Shape).Idx → EReal)
    (xa : Vec Ideal S512x1024 .f32) (wa : Vec Ideal S1024x2048 .f32) (xb : Vec Ideal S512x1024 .f32)
    (wb : Vec Ideal S1024x2048 .f32) (bb : Vec Ideal S1x2048 .f32) (r : ℕ)
    (hxa : ∀ (y : S512x1024.Idx) (i : S4096x2048.Idx), (i (0 : Fin 2)).val = 512 * r + (y (0 : Fin 2)).val →
      (i (1 : Fin 2)).val = (y (1 : Fin 2)).val → xa y = v0 i)
    (hwa : ∀ (y : S1024x2048.Idx) (i : S2048x2048.Idx), (i (0 : Fin 2)).val = (y (0 : Fin 2)).val →
      (i (1 : Fin 2)).val = (y (1 : Fin 2)).val → wa y = w1 i)
    (hxb : ∀ (y : S512x1024.Idx) (i : S4096x2048.Idx), (i (0 : Fin 2)).val = 512 * r + (y (0 : Fin 2)).val →
      (i (1 : Fin 2)).val = 1024 + (y (1 : Fin 2)).val → xb y = v0 i)
    (hwb : ∀ (y : S1024x2048.Idx) (i : S2048x2048.Idx), (i (0 : Fin 2)).val = 1024 + (y (0 : Fin 2)).val →
      (i (1 : Fin 2)).val = (y (1 : Fin 2)).val → wb y = w1 i)
    (hbb : ∀ (y : S1x2048.Idx) (i : S1x2048.Idx), (i (1 : Fin 2)).val = (y (1 : Fin 2)).val → bb y = b2 i)
    (j : S512x2048.Idx) (i : S4096x2048.Idx) (hi0 : (i (0 : Fin 2)).val = 512 * r + (j (0 : Fin 2)).val)
    (hi1 : (i (1 : Fin 2)).val = (j (1 : Fin 2)).val) :
    k0_pay4 (F := Ideal) xb wb (k0_pay2 xa wa) bb j = Cert.DenseSpec.dense v0 w1 b2 i := by
  obtain ⟨p, q, rfl⟩ : ∃ (p : Fin 512) (q : Fin 2048), j = ix2 p q := ⟨j 0, j 1, eq_ix2 j⟩
  rw [out_apply]
  unfold Cert.DenseSpec.dense
  rw [Cert.DenseSpec.sum_halves]
  refine congrArg₂ (· + ·) (congrArg₂ (· + ·) (Finset.sum_congr rfl fun k _ => ?_) (Finset.sum_congr rfl fun k _ => ?_)) ?_
  · rw [hxa (ix2 p k) (ix2 (i 0) ⟨0 * 1024 + k.val, by have := k.isLt; omega⟩) hi0 (by show 0 * 1024 + k.val = k.val; omega),
      hwa (ix2 k q) (ix2 ⟨0 * 1024 + k.val, by have := k.isLt; omega⟩ (i 1)) (by show 0 * 1024 + k.val = k.val; omega) hi1]
  · rw [hxb (ix2 p k) (ix2 (i 0) ⟨1 * 1024 + k.val, by have := k.isLt; omega⟩) hi0 (by show 1 * 1024 + k.val = 1024 + k.val; omega),
      hwb (ix2 k q) (ix2 ⟨1 * 1024 + k.val, by have := k.isLt; omega⟩ (i 1)) (by show 1 * 1024 + k.val = 1024 + k.val; omega) hi1]
  · exact hbb (ix2 (0 : Fin 1) q) (ix2 (0 : Fin 1) (i 1)) hi1

/-! ## The index maps, decided once over the grid -/

/-- Block indices of the four windows at point t: row block t mod 8 and contraction half t / 8; the output parked on
    block 0 through the first half. -/
theorem idx_facts : ∀ t : Fin cfg0.N,
    win0_0.index t (0 : Fin 2) = t.val % 8 ∧ win0_0.index t (1 : Fin 2) = t.val / 8
    ∧ win0_1.index t (0 : Fin 2) = t.val / 8 ∧ win0_1.index t (1 : Fin 2) = 0
    ∧ win0_2.index t (0 : Fin 2) = 0 ∧ win0_2.index t (1 : Fin 2) = 0
    ∧ win0_3.index t (0 : Fin 2) = (if 8 ≤ t.val then t.val % 8 else 0) ∧ win0_3.index t (1 : Fin 2) = 0 :=
  (by decide +kernel : ∀ t : Fin grid0.N, _)

variable (m : (ℓ : Loc nD τ sig) → Buf (Elt Ideal) ℓ) (ρ : Dev nD → PrngReg)

/-- The result array's contents after the run: x · w + b of the arrays as the region finds them. -/
abbrev result (c : Dev nD) : Buf (Elt Ideal) ((c : Thread nD τ).loc main_v1) :=
  Cert.DenseSpec.dense (V m c main_v0) (V m c main_arg1) (V m c main_arg2)

/-- WHAT A POINT OF THE SECOND HALF WRITES BACK is its block of the result. -/
theorem flushed_eq (c : Dev nD) (t : Fin cfg0.N) (hf : (cfg0.win 3).flush t = true) :
    (dats m 0 c).flushed 3 t = ((cfg0.win 3).blk t).view.read (Elt Ideal) (result m c) := by
  have hN : t.val < 16 := lt_of_lt_of_eq t.isLt (show cfg0.N = 16 from N_0)
  have h8 : 8 ≤ t.val := by
    by_contra h
    have hnf := noflush_out t (by omega)
    rw [hnf] at hf
    exact Bool.false_ne_true hf
  have hev : (early t).val = t.val - 8 := rfl
  show (cfg0.win 3).cut (grid0.coords t) ((dats m 0 c).after 3 t) = _
  rw [after_o]
  unfold outAt part0
  obtain ⟨e00, e01, e10, e11, e20, e21, e30, e31⟩ := idx_facts t
  obtain ⟨f00, f01, f10, f11, -, -, -, -⟩ := idx_facts (early t)
  rw [if_pos h8] at e30
  rw [hev] at f00 f01 f10
  funext j
  refine block_eq (V m c main_v0) (V m c main_arg1) (V m c main_arg2)
    (iblk m c 0 (early t)) (iblk m c 1 (early t)) (iblk m c 0 t) (iblk m c 1 t) (iblk m c 2 t) (t.val - 8)
    (fun y i h0 h1 => ?_) (fun y i h0 h1 => ?_) (fun y i h0 h1 => ?_) (fun y i h0 h1 => ?_) (fun y i h1 => ?_)
    j (((cfg0.win 3).blk t).view.emb j) ?_ ?_
  · show V m c main_v0 (((cfg0.win 0).blk (early t)).view.emb y) = V m c main_v0 i
    refine congrArg _ (funext fun a => Fin.ext ?_)
    match a with
    | ⟨0, _⟩ => show win0_0.index (early t) (0 : Fin 2) * 512 + 1 * (y 0).val = (i 0).val; omega
    | ⟨1, _⟩ => show win0_0.index (early t) (1 : Fin 2) * 1024 + 1 * (y 1).val = (i 1).val; omega
  · show V m c main_arg1 (((cfg0.win 1).blk (early t)).view.emb y) = V m c main_arg1 i
    refine congrArg _ (funext fun a => Fin.ext ?_)
    match a with
    | ⟨0, _⟩ => show win0_1.index (early t) (0 : Fin 2) * 1024 + 1 * (y 0).val = (i 0).val; omega
    | ⟨1, _⟩ => show win0_1.index (early t) (1 : Fin 2) * 2048 + 1 * (y 1).val = (i 1).val; omega
  · show V m c main_v0 (((cfg0.win 0).blk t).view.emb y) = V m c main_v0 i
    refine congrArg _ (funext fun a => Fin.ext ?_)
    match a with
    | ⟨0, _⟩ => show win0_0.index t (0 : Fin 2) * 512 + 1 * (y 0).val = (i 0).val; omega
    | ⟨1, _⟩ => show win0_0.index t (1 : Fin 2) * 1024 + 1 * (y 1).val = (i 1).val; omega
  · show V m c main_arg1 (((cfg0.win 1).blk t).view.emb y) = V m c main_arg1 i
    refine congrArg _ (funext fun a => Fin.ext ?_)
    match a with
    | ⟨0, _⟩ => show win0_1.index t (0 : Fin 2) * 1024 + 1 * (y 0).val = (i 0).val; omega
    | ⟨1, _⟩ => show win0_1.index t (1 : Fin 2) * 2048 + 1 * (y 1).val = (i 1).val; omega
  · show V m c main_arg2 (((cfg0.win 2).blk t).view.emb y) = V m c main_arg2 i
    refine congrArg _ (funext fun a => Fin.ext ?_)
    have hy0 : (y 0).val < 1 := (y 0).isLt
    have hi0 : (i 0).val < 1 := (i 0).isLt
    match a with
    | ⟨0, _⟩ => show win0_2.index t (0 : Fin 2) * 1 + 1 * (y 0).val = (i 0).val; omega
    | ⟨1, _⟩ => show win0_2.index t (1 : Fin 2) * 2048 + 1 * (y 1).val = (i 1).val; omega
  · show win0_3.index t (0 : Fin 2) * 512 + 1 * (j 0).val = 512 * (t.val - 8) + (j 0).val
    omega
  · show win0_3.index t (1 : Fin 2) * 2048 + 1 * (j 1).val = (j 1).val
    omega

/-- An index of the result array is in point t's block iff each coordinate is in the block's range on its axis. -/
theorem mem_blk (t : Fin cfg0.N) (i : S4096x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v1).slice (win0_3.rect t)).set ↔ _
  rw [View.set_slice_whole, Rect.mem_set_unit]
  exact Iff.rfl

/-- THE RESULT ARRAY after the run: row i is written back by point 8 + i / 512, so the blocks cover the array. -/
theorem final_o (c : Dev nD) : (dats m 0 c).arrAt 3 cfg0.N = result m c :=
  (dats m 0 c).arrAt_eq_of_cover 3 (result m c) (flushed_eq m c) fun i => by
    have hi0 : (i 0).val < 4096 := (i 0).isLt
    have hi1 : (i 1).val < 2048 := (i 1).isLt
    have hlt : 8 + (i 0).val / 512 < cfg0.N := by rw [show cfg0.N = 16 from N_0]; omega
    obtain ⟨-, -, -, -, -, -, e30, e31⟩ := idx_facts ⟨8 + (i 0).val / 512, hlt⟩
    rw [if_pos (show 8 ≤ 8 + (i 0).val / 512 by omega)] at e30
    refine ⟨⟨8 + (i 0).val / 512, hlt⟩, flush_out _ (show 8 ≤ 8 + (i 0).val / 512 by omega), ?_⟩
    rw [mem_blk]
    intro a
    match a with
    | ⟨0, _⟩ =>
      show win0_3.index ⟨8 + (i 0).val / 512, hlt⟩ (0 : Fin 2) * 512 ≤ (i 0).val
        ∧ (i 0).val < win0_3.index ⟨8 + (i 0).val / 512, hlt⟩ (0 : Fin 2) * 512 + 512
      rw [e30]; show (8 + (i 0).val / 512) % 8 * 512 ≤ _ ∧ _ < (8 + (i 0).val / 512) % 8 * 512 + 512; omega
    | ⟨1, _⟩ =>
      show win0_3.index ⟨8 + (i 0).val / 512, hlt⟩ (1 : Fin 2) * 2048 ≤ (i 1).val
        ∧ (i 1).val < win0_3.index ⟨8 + (i 0).val / 512, hlt⟩ (1 : Fin 2) * 2048 + 2048
      rw [e31]; omega

/-! ## The lines of @main around the region -/

/-- The flattened activations the region finds: the reshape of the first argument. -/
theorem V_v0 (c : Dev nD) : (V m c main_v0 : S4096x2048.Idx → EReal)
    = shapeCast S4096x2048 (m ((c : Thread nD τ).loc main_arg0)) shapeCasts_S8x512x2048_S4096x2048 := by
  show StableHlo.after hostOps0 (fun b => m (c, b)) (Proc.devRef .tc main_v0) = _
  after_results
  rfl

/-- The program's result after the last line: the result array, its rows folded back. -/
theorem tail_v2 (c : Dev nD) :
    Pipeline.afterTail₀ cfgs (dats m) 0 (V0 m) [hostOps1] c main_v2
      = Cert.DenseSpec.denseOut shapeCasts_S8x512x2048_S4096x2048 shapeCasts_S4096x2048_S8x512x2048
          (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = result m c := (Pipeline.withArrays_arr spec0 launch0.win.arr_inj c _ _ 3).trans (final_o m c)
  rw [hw]
  unfold result Cert.DenseSpec.denseOut
  rw [V_v0, V_main_arg1, V_main_arg2]
  rfl

/-! ## The run, read -/

/-- Every weakly fair execution of the idealized kernel's @main terminates with the result at `denseOut` of the
    arguments and the arguments unchanged. -/
theorem run : θ_run defs (onTc (τ := τ) (main (F := Ideal))) ⟨m, fun _ => 0, ρ⟩ fun r => ∀ c : Dev nD,
      r.2.mem ((c.tc : Thread nD τ).loc main_v2)
        = Cert.DenseSpec.denseOut shapeCasts_S8x512x2048_S4096x2048 shapeCasts_S4096x2048_S8x512x2048
            (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_v2 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.DenseValue

end
-- ==== Proof.RefPieces.lean ====
/-
  What one grid point of the tiled product leaves behind, read as values.

  The reference walks a grid of (row block, column block, contraction block). At each point it holds a 512 x 512
  accumulator across the contraction axis: at the first contraction block the accumulator is cleared and the first
  partial product added, at every later block the next partial product is added to what the block before left, and
  at the last block the output block is the accumulator plus the bias row broadcast down the rows. The lemmas below
  state exactly that, for any float type: the accumulator after a point is the second payload of the accumulator
  before it (or of the zero block) and the two input blocks; the output block at a last point is the third payload of
  that accumulator and the bias block.
-/
import proofs.«166904_g2000606664748321_pallasbulk_460_14_alg».proof.Proof.Gen.ReferenceIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen

variable {F : FTy → Type} [FloatOps F]

theorem hz : (![0, 0] : Fin 2 → Nat) = fun _ => 0 := funext fun a => by fin_cases a <;> rfl

/-- At a first contraction block: the accumulator is cleared, then the product of the two input blocks is added. -/
theorem sout_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 : Vec F S512x512 .f32) (x1 : Vec F S512x512 .f32) (x2 : Vec F S1x512 .f32) :
    sout0_A_0 c i arg3 harg3 arg4 harg4 arg5 harg5 arg6 harg6 arg7 harg7 hc0 hc1 x0 x1 x2 = k0_pay2 k0_pay1 x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x512) hz, View.readCov_unit_zero (S := S512x512) _ hz]
  simp only [View.readAt_eq_ld, harg3.read_unread, harg4.read_unread, View.ld_unit_zero (S := S512x512) hz]

/-- At a middle contraction block: the product of the two input blocks is added to the accumulator found. -/
theorem sout_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 : Vec F S512x512 .f32) (x1 : Vec F S512x512 .f32) (x2 : Vec F S1x512 .f32) (xs0 : Vec F S512x512 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg7.read_unread, harg3.read_unread, harg4.read_unread, View.ld_unit_zero (S := S512x512) hz]

/-- At a last contraction block the accumulator is updated in the same way, -/
theorem sout_C (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S512x512 .f32) (x1 : Vec F S512x512 .f32) (x2 : Vec F S1x512 .f32) (xs0 : Vec F S512x512 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg7.read_unread, harg3.read_unread, harg4.read_unread, View.ld_unit_zero (S := S512x512) hz]

/-- and the output block is the updated accumulator plus the bias row broadcast down the rows. -/
theorem out_C (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S512x512 .f32) (x1 : Vec F S512x512 .f32) (x2 : Vec F S1x512 .f32) (xs0 : Vec F S512x512 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S512x512) _ hz]
  simp only [View.readAt_eq_ld, harg7.read_unread, harg3.read_unread, harg4.read_unread, harg5.read_unread,
    View.ld_unit_zero (S := S512x512) hz, View.ld_unit_zero (S := S1x512) hz]

end Cert.ReferenceIdeal.RefValue
end
-- ==== Proof.RefAcc.lean ====
/-
  The accumulator of the tiled product, point by point.

  Grid point t = 4 b + g works on output block b = 4 i + j (row block i, column block j) at contraction block g.
  Entry (p, q) of that output block is entry (r, cq) = (512 i + p, 512 j + q) of the result. The two input blocks
  at the point are rows 512 i … of the flattened activations against columns 512 g … and rows 512 g … of the weights
  against columns 512 j …, so their product at (p, q) is the sum of the products x(r, k) w(k, cq) over the g-th
  quarter of the contracted coordinate k. The accumulator after the point therefore holds zero plus quarters 0 … g,
  added in that order: by induction along the contraction axis, at any float type read as extended reals.
-/
import proofs.«166904_g2000606664748321_pallasbulk_460_14_alg».proof.Proof.RefPieces
import proofs.«166904_g2000606664748321_pallasbulk_460_14_alg».proof.Proof.Spec
import proofs.«166904_g2000606664748321_pallasbulk_460_14_alg».proof.Proof.LibDotRecord
import Idealize.ShloMosaic.PureOps.Ideal.Laws
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.ReferenceIdeal.RefValue

open Cert.ReferenceIdeal Cert.ReferenceIdeal.Gen

variable (m : (ℓ : Loc nD τ sig) → Buf (Elt Ideal) ℓ)

/-! ## The three payloads at an entry -/

/-- The cleared accumulator is zero everywhere. -/
theorem pay1_apply (p q : Fin 512) : (k0_pay1 (F := Ideal)) (ix2 p q) = 0 := by
  unfold k0_pay1
  refine (congrFun (shapeCast_self _ _) (ix2 p q)).trans ?_
  exact Ideal.ofBits_zero_f32

/-- The accumulator update at entry (p, q): what was there plus the inner product of row p of the left block with
    column q of the right block. -/
theorem pay2_apply (acc x0 x1 : Vec Ideal S512x512 .f32) (p q : Fin 512) :
    k0_pay2 acc x0 x1 (ix2 p q) = acc (ix2 p q) + ∑ k : Fin 512, x0 (ix2 p k) * x1 (ix2 k q) := by
  unfold k0_pay2
  refine (congrFun (shapeCast_self _ _) (ix2 p q)).trans ?_
  refine congrArg (acc (ix2 p q) + ·) ?_
  refine (DotRecord.matmul_zero_apply (M := 512) (K := 512) (N := 512) dot_S512x512_S512x512_S512x512_1_0_0_1_n_n
    rfl rfl rfl rfl rfl rfl _ x1 none p q).trans ?_
  exact Finset.sum_congr rfl fun k _ => congrArg (· * x1 (ix2 k q)) (congrFun (shapeCast_self x0 _) (ix2 p k))

/-- The output block at entry (p, q): the accumulator there plus entry q of the bias row. -/
theorem pay3_apply (a : Vec Ideal S512x512 .f32) (x2 : Vec Ideal S1x512 .f32) (p q : Fin 512) :
    k0_pay3 a x2 (ix2 p q) = a (ix2 p q) + x2 (ix2 (0 : Fin 1) q) := by
  unfold k0_pay3
  exact congrArg (a (ix2 p q) + ·) (DotRecord.broadcastTo_1b_ab_apply x2 _ p q)

/-! ## Where each block sits in its array -/

/-- The printed index maps over the grid: point t = 16 i + 4 j + k reads activation block (i, k), weight block (k, j),
    bias block (0, j), and owns output block (i, j). -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- Entry (p, k) of the activation block at point t is entry (r, kk) of the flattened activations. -/
theorem iblk0_apply (c : Dev nD) (t : Fin cfg0.N) (p k : Fin 512) (r : Fin 4096) (kk : Fin 2048)
    (hr : r.val = win0_0.index t (0 : Fin 2) * 512 + p.val) (hk : kk.val = win0_0.index t (1 : Fin 2) * 512 + k.val) :
    (iblk m c 0 t : Vec Ideal S512x512 .f32) (ix2 p k) = V m c main_v0 (ix2 r kk) := by
  unfold iblk
  rw [View.read_apply]
  show V m c main_v0 _ = V m c main_v0 _
  congr 1
  funext a
  apply Fin.ext
  match a with
  | ⟨0, _⟩ => show win0_0.index t (0 : Fin 2) * 512 + 1 * p.val = r.val; omega
  | ⟨1, _⟩ => show win0_0.index t (1 : Fin 2) * 512 + 1 * k.val = kk.val; omega

/-- Entry (k, q) of the weight block at point t is entry (kk, cq) of the weights. -/
theorem iblk1_apply (c : Dev nD) (t : Fin cfg0.N) (k q : Fin 512) (kk cq : Fin 2048)
    (hk : kk.val = win0_1.index t (0 : Fin 2) * 512 + k.val) (hq : cq.val = win0_1.index t (1 : Fin 2) * 512 + q.val) :
    (iblk m c 1 t : Vec Ideal S512x512 .f32) (ix2 k q) = V m c main_arg1 (ix2 kk cq) := by
  unfold iblk
  rw [View.read_apply]
  show V m c main_arg1 _ = V m c main_arg1 _
  congr 1
  funext a
  apply Fin.ext
  match a with
  | ⟨0, _⟩ => show win0_1.index t (0 : Fin 2) * 512 + 1 * k.val = kk.val; omega
  | ⟨1, _⟩ => show win0_1.index t (1 : Fin 2) * 512 + 1 * q.val = cq.val; omega

/-- Entry (0, q) of the bias block at point t is entry (0, cq) of the bias row. -/
theorem iblk2_apply (c : Dev nD) (t : Fin cfg0.N) (q : Fin 512) (cq : Fin 2048)
    (hq : cq.val = win0_2.index t (1 : Fin 2) * 512 + q.val) (h0 : win0_2.index t (0 : Fin 2) = 0) :
    (iblk m c 2 t : Vec Ideal S1x512 .f32) (ix2 (0 : Fin 1) q) = V m c main_arg2 (ix2 (0 : Fin 1) cq) := by
  unfold iblk
  rw [View.read_apply]
  show V m c main_arg2 _ = V m c main_arg2 _
  congr 1
  funext a
  apply Fin.ext
  match a with
  | ⟨0, _⟩ => show win0_2.index t (0 : Fin 2) * 1 + 1 * 0 = 0; omega
  | ⟨1, _⟩ => show win0_2.index t (1 : Fin 2) * 512 + 1 * q.val = cq.val; omega

/-! ## The accumulator after each point: a partial sum of the contraction -/

/-- The three arrays the grid reads, as the region finds them: the flattened activations, the weights, the bias row. -/
abbrev acts (c : Dev nD) : S4096x2048.Idx → EReal := V m c main_v0
abbrev wts (c : Dev nD) : S2048x2048.Idx → EReal := V m c main_arg1
abbrev bias (c : Dev nD) : S1x2048.Idx → EReal := V m c main_arg2

/-- The products summed for entry (r, cq) of the result, along the contracted coordinate. -/
def term (c : Dev nD) (r : Fin 4096) (cq : Fin 2048) : Fin 2048 → EReal :=
  fun k => acts m c (ix2 r k) * wts m c (ix2 k cq)

/-- The sum over the g-th quarter (512 consecutive coordinates) of the contraction. -/
def quarter (f : Fin 2048 → EReal) (g : ℕ) (hg : g < 4) : EReal :=
  ∑ k : Fin 512, f ⟨g * 512 + k.val, by have := k.isLt; omega⟩

/-- Zero, then the quarters added one after the other up to quarter g: the grouping the accumulator follows. -/
def partialSum (f : Fin 2048 → EReal) : (g : ℕ) → g < 4 → EReal
  | 0, h => 0 + quarter f 0 h
  | g + 1, h => partialSum f g (Nat.lt_of_succ_lt h) + quarter f (g + 1) h

/-- All four quarters make the whole contraction. -/
theorem partialSum_three (f : Fin 2048 → EReal) : partialSum f 3 (by norm_num) = ∑ k : Fin 2048, f k := by
  rw [Cert.DenseSpec.sum_quarters f]
  rfl

/-- The product of the two input blocks at point t = 4 b + g, at entry (p, q), is quarter g of the contraction for the
    entry of the result that (p, q) of output block b is. -/
theorem prod_sum (c : Dev nD) (t : Fin cfg0.N) (b g : ℕ) (hg : g < 4) (ht : t.val = 4 * b + g) (p q : Fin 512)
    (r : Fin 4096) (cq : Fin 2048) (hr : r.val = b / 4 * 512 + p.val) (hc : cq.val = b % 4 * 512 + q.val)
    (x0 x1 : Vec Ideal S512x512 .f32) (hx0 : x0 = iblk m c 0 t) (hx1 : x1 = iblk m c 1 t) :
    ∑ k : Fin 512, x0 (ix2 p k) * x1 (ix2 k q) = quarter (term m c r cq) g hg := by
  subst hx0 hx1
  obtain ⟨e0, e1, e2, e3, -, -, -, -⟩ := idx_facts t
  have hN : t.val < 128 := lt_of_lt_of_eq t.isLt (show cfg0.N = 128 from N_0)
  unfold quarter term
  refine Finset.sum_congr rfl fun k _ => ?_
  have hk : k.val < 512 := k.isLt
  exact congrArg₂ (· * ·)
    (iblk0_apply m c t p k r ⟨g * 512 + k.val, by omega⟩ (by rw [e0]; omega) (by rw [e1]; dsimp only; omega))
    (iblk1_apply m c t k q ⟨g * 512 + k.val, by omega⟩ cq (by rw [e2]; dsimp only; omega) (by rw [e3]; omega))

/-- The same accumulator contents at equal points. -/
theorem outsAt0_congr (c : Dev nD) (n n' : ℕ) (h : n < cfg0.N) (h' : n' < cfg0.N) (e : n = n') :
    outsAt0 m c n h = outsAt0 m c n' h' := by
  subst e; rfl

/-- After point 4 b + g the accumulator holds, at entry (p, q), zero plus quarters 0 … g of the contraction for the
    entry of the result that (p, q) of output block b is — by induction along the contraction axis. -/
theorem acc_eq (c : Dev nD) (b : ℕ) (p q : Fin 512) (r : Fin 4096) (cq : Fin 2048)
    (hr : r.val = b / 4 * 512 + p.val) (hc : cq.val = b % 4 * 512 + q.val) :
    ∀ (g : ℕ) (hg : g < 4) (h : 4 * b + g < cfg0.N),
      ((outsAt0 m c (4 * b + g) h).2 : Vec Ideal S512x512 .f32) (ix2 p q) = partialSum (term m c r cq) g hg
  | 0, hg, h => by
    have h0 : (⟨4 * b + 0, h⟩ : Fin cfg0.N).val % 4 = 0 := by dsimp only; omega
    have h1 : ¬(⟨4 * b + 0, h⟩ : Fin cfg0.N).val % 4 = 3 := by dsimp only; omega
    rw [outsAt0_A m c ⟨4 * b + 0, h⟩ h0 h1]
    dsimp only
    refine (congrFun (sout_A (F := Ideal) c (grid0.coords ⟨4 * b + 0, h⟩) (ms0_0 ⟨4 * b + 0, h⟩) (hs0_0 ⟨4 * b + 0, h⟩) (ms0_1 ⟨4 * b + 0, h⟩) (hs0_1 ⟨4 * b + 0, h⟩) (ms0_2 ⟨4 * b + 0, h⟩) (hs0_2 ⟨4 * b + 0, h⟩) (ms0_3 ⟨4 * b + 0, h⟩) (hs0_3 ⟨4 * b + 0, h⟩) scM0_0 (Memref.isWhole_whole _)
      ((hcond0_0 ⟨4 * b + 0, h⟩).mpr h0) (fun h' => h1 ((hcond0_1 ⟨4 * b + 0, h⟩).mp h'))
      (iblk m c 0 ⟨4 * b + 0, h⟩) (iblk m c 1 ⟨4 * b + 0, h⟩) (iblk m c 2 ⟨4 * b + 0, h⟩)) (ix2 p q)).trans ?_
    refine (pay2_apply (k0_pay1 (F := Ideal)) (iblk m c 0 ⟨4 * b + 0, h⟩) (iblk m c 1 ⟨4 * b + 0, h⟩) p q).trans ?_
    exact congrArg₂ (· + ·) (pay1_apply p q) (prod_sum m c ⟨4 * b + 0, h⟩ b 0 hg rfl p q r cq hr hc _ _ rfl rfl)
  | g + 1, hg, h => by
    have h0 : ¬(⟨4 * b + (g + 1), h⟩ : Fin cfg0.N).val % 4 = 0 := by dsimp only; omega
    have ih := acc_eq c b p q r cq hr hc g (Nat.lt_of_succ_lt hg) (Nat.lt_of_succ_lt h)
    by_cases h1 : (⟨4 * b + (g + 1), h⟩ : Fin cfg0.N).val % 4 = 3
    · rw [outsAt0_C m c ⟨4 * b + (g + 1), h⟩ h0 h1]
      dsimp only
      refine (congrFun (sout_C (F := Ideal) c (grid0.coords ⟨4 * b + (g + 1), h⟩) (ms0_0 ⟨4 * b + (g + 1), h⟩) (hs0_0 ⟨4 * b + (g + 1), h⟩) (ms0_1 ⟨4 * b + (g + 1), h⟩) (hs0_1 ⟨4 * b + (g + 1), h⟩) (ms0_2 ⟨4 * b + (g + 1), h⟩) (hs0_2 ⟨4 * b + (g + 1), h⟩) (ms0_3 ⟨4 * b + (g + 1), h⟩) (hs0_3 ⟨4 * b + (g + 1), h⟩) scM0_0 (Memref.isWhole_whole _)
        (fun h' => h0 ((hcond0_0 ⟨4 * b + (g + 1), h⟩).mp h')) ((hcond0_1 ⟨4 * b + (g + 1), h⟩).mpr h1)
        (iblk m c 0 ⟨4 * b + (g + 1), h⟩) (iblk m c 1 ⟨4 * b + (g + 1), h⟩) (iblk m c 2 ⟨4 * b + (g + 1), h⟩)
        (outsAt0 m c (4 * b + (g + 1) - 1) (Nat.lt_of_le_of_lt (Nat.sub_le _ _) h)).2) (ix2 p q)).trans ?_
      refine (pay2_apply (outsAt0 m c (4 * b + (g + 1) - 1) (Nat.lt_of_le_of_lt (Nat.sub_le _ _) h)).2
        (iblk m c 0 ⟨4 * b + (g + 1), h⟩) (iblk m c 1 ⟨4 * b + (g + 1), h⟩) p q).trans ?_
      exact congrArg₂ (· + ·) ih (prod_sum m c ⟨4 * b + (g + 1), h⟩ b (g + 1) hg rfl p q r cq hr hc _ _ rfl rfl)
    · rw [outsAt0_B m c ⟨4 * b + (g + 1), h⟩ h0 h1]
      dsimp only
      refine (congrFun (sout_B (F := Ideal) c (grid0.coords ⟨4 * b + (g + 1), h⟩) (ms0_0 ⟨4 * b + (g + 1), h⟩) (hs0_0 ⟨4 * b + (g + 1), h⟩) (ms0_1 ⟨4 * b + (g + 1), h⟩) (hs0_1 ⟨4 * b + (g + 1), h⟩) (ms0_2 ⟨4 * b + (g + 1), h⟩) (hs0_2 ⟨4 * b + (g + 1), h⟩) (ms0_3 ⟨4 * b + (g + 1), h⟩) (hs0_3 ⟨4 * b + (g + 1), h⟩) scM0_0 (Memref.isWhole_whole _)
        (fun h' => h0 ((hcond0_0 ⟨4 * b + (g + 1), h⟩).mp h')) (fun h' => h1 ((hcond0_1 ⟨4 * b + (g + 1), h⟩).mp h'))
        (iblk m c 0 ⟨4 * b + (g + 1), h⟩) (iblk m c 1 ⟨4 * b + (g + 1), h⟩) (iblk m c 2 ⟨4 * b + (g + 1), h⟩)
        (outsAt0 m c (4 * b + (g + 1) - 1) (Nat.lt_of_le_of_lt (Nat.sub_le _ _) h)).2) (ix2 p q)).trans ?_
      refine (pay2_apply (outsAt0 m c (4 * b + (g + 1) - 1) (Nat.lt_of_le_of_lt (Nat.sub_le _ _) h)).2
        (iblk m c 0 ⟨4 * b + (g + 1), h⟩) (iblk m c 1 ⟨4 * b + (g + 1), h⟩) p q).trans ?_
      exact congrArg₂ (· + ·) ih (prod_sum m c ⟨4 * b + (g + 1), h⟩ b (g + 1) hg rfl p q r cq hr hc _ _ rfl rfl)

end Cert.ReferenceIdeal.RefValue
end
-- ==== Proof.RefBlocks.lean ====
/-
  From the accumulator to the result array.

  Output block (i, j) is written back once, at the last contraction point of its run (the point t = 16 i + 4 j + 3),
  and what is written is the accumulator with all four quarters of the contraction added, plus the bias row: at entry
  (p, q) the full inner product of row 512 i + p of the flattened activations with column 512 j + q of the weights,
  plus bias entry 512 j + q. That is block (i, j) of one function of the three arrays, and the 32 output blocks tile
  the [4096, 2048] result, so the result array ends holding that function everywhere.
-/
import proofs.«166904_g2000606664748321_pallasbulk_460_14_alg».proof.Proof.RefAcc

noncomputable section

open scoped BigOperators
open Idealize.ShloMosaic Idealize.ShloMosaic.TcCoe Idealize.SL.Sem Idealize.ShloMosaic.ValueIdx
open Idealize.ShloMosaic.Pipeline (Dat)

namespace Cert.ReferenceIdeal.RefValue

open Cert.ReferenceIdeal Cert.ReferenceIdeal.Gen

variable (m : (ℓ : Loc nD τ sig) → Buf (Elt Ideal) ℓ)

/-- The product plus bias of the three arrays as the region finds them: what the result array ends holding. -/
abbrev result (c : Dev nD) : S4096x2048.Idx → EReal := Cert.DenseSpec.dense (acts m c) (wts m c) (bias m c)

/-- At a last contraction block (a point t with t % 4 = 3) the output block holds, at entry (p, q), the full
    contraction plus the bias entry for the entry (r, cq) of the result it is: the accumulator's three earlier quarters,
    the fourth added at this point, then the bias row. -/
theorem out_eq (c : Dev nD) (t : Fin cfg0.N) (h3 : t.val % 4 = 3) (p q : Fin 512) (r : Fin 4096) (cq : Fin 2048)
    (hr : r.val = t.val / 16 * 512 + p.val) (hc : cq.val = t.val / 4 % 4 * 512 + q.val) :
    ((outsAt0 m c t.val t.isLt).1 : Vec Ideal S512x512 .f32) (ix2 p q) = result m c (ix2 r cq) := by
  have h0 : ¬t.val % 4 = 0 := by omega
  have hN : t.val < 128 := lt_of_lt_of_eq t.isLt (show cfg0.N = 128 from N_0)
  obtain ⟨-, -, -, -, e4, e5, -, -⟩ := idx_facts t
  rw [outsAt0_C m c t h0 h3]
  dsimp only
  refine (congrFun (out_C (F := Ideal) c (grid0.coords t) (ms0_0 t) (hs0_0 t) (ms0_1 t) (hs0_1 t) (ms0_2 t) (hs0_2 t) (ms0_3 t) (hs0_3 t) scM0_0 (Memref.isWhole_whole _)
    (fun h' => h0 ((hcond0_0 t).mp h')) ((hcond0_1 t).mpr h3) (iblk m c 0 t) (iblk m c 1 t) (iblk m c 2 t)
    (outsAt0 m c (t.val - 1) (Nat.lt_of_le_of_lt (Nat.sub_le _ _) t.isLt)).2) (ix2 p q)).trans ?_
  refine (pay3_apply (k0_pay2 (outsAt0 m c (t.val - 1) (Nat.lt_of_le_of_lt (Nat.sub_le _ _) t.isLt)).2 (iblk m c 0 t) (iblk m c 1 t))
    (iblk m c 2 t) p q).trans ?_
  show _ = (∑ k : Fin 2048, acts m c (ix2 r k) * wts m c (ix2 k cq)) + bias m c (ix2 (0 : Fin 1) cq)
  refine congrArg₂ (· + ·) ?_ (iblk2_apply m c t q cq (by rw [e5]; omega) e4)
  refine (pay2_apply (outsAt0 m c (t.val - 1) (Nat.lt_of_le_of_lt (Nat.sub_le _ _) t.isLt)).2 (iblk m c 0 t) (iblk m c 1 t) p q).trans ?_
  refine Eq.trans ?_ (partialSum_three (term m c r cq))
  show _ = partialSum (term m c r cq) 2 (by norm_num) + quarter (term m c r cq) 3 (by norm_num)
  refine congrArg₂ (· + ·) ?_ (prod_sum m c t (t.val / 4) 3 (by norm_num) (by omega) p q r cq (by omega) (by omega)
    (iblk m c 0 t) (iblk m c 1 t) rfl rfl)
  have hlt : 4 * (t.val / 4) + 2 < cfg0.N :=
    lt_of_lt_of_eq (by omega : 4 * (t.val / 4) + 2 < 128) (show (128 : ℕ) = cfg0.N from N_0.symm)
  rw [outsAt0_congr m c (t.val - 1) (4 * (t.val / 4) + 2) (Nat.lt_of_le_of_lt (Nat.sub_le _ _) t.isLt) hlt (by omega)]
  exact acc_eq m c (t.val / 4) p q r cq (by omega) (by omega) 2 (by norm_num) hlt

/-- What a last contraction block writes back is its block of the result. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have hN : t.val < 128 := lt_of_lt_of_eq t.isLt (show cfg0.N = 128 from N_0)
  obtain ⟨-, -, -, -, -, -, e6, e7⟩ := idx_facts t
  show (cfg0.win 3).cut (grid0.coords t) ((dats m 0 c).after 3 t) = _
  rw [after0_3]
  funext y
  have hy0 : (y 0).val < 512 := (y 0).isLt
  have hy1 : (y 1).val < 512 := (y 1).isLt
  rw [View.read_apply]
  show ((outsAt0 m c t.val t.isLt).1 : Vec Ideal S512x512 .f32) y = result m c (((cfg0.win 3).blk t).view.emb y)
  refine (congrArg ((outsAt0 m c t.val t.isLt).1 : Vec Ideal S512x512 .f32) (eq_ix2 y)).trans ?_
  refine (out_eq m c t h3 (y 0) (y 1) ⟨t.val / 16 * 512 + (y 0).val, by omega⟩ ⟨t.val / 4 % 4 * 512 + (y 1).val, by omega⟩ rfl rfl).trans ?_
  refine congrArg (result m c) ?_
  funext a
  apply Fin.ext
  match a with
  | ⟨0, _⟩ => show t.val / 16 * 512 + (y 0).val = win0_3.index t (0 : Fin 2) * 512 + 1 * (y 0).val; rw [e6]; omega
  | ⟨1, _⟩ => show t.val / 4 % 4 * 512 + (y 1).val = win0_3.index t (1 : Fin 2) * 512 + 1 * (y 1).val; rw [e7]; omega

/-- Every entry (r, cq) of the result lies in the output block of the last contraction point of row block r / 512,
    column block cq / 512. -/
theorem cover (i : S4096x2048.Idx) :
    ∃ t : Fin cfg0.N, (cfg0.win 3).flush t = true ∧ i ∈ ((cfg0.win 3).blk t).view.set := by
  have h0 : (i 0).val < 4096 := (i 0).isLt
  have h1 : (i 1).val < 2048 := (i 1).isLt
  have hN : cfg0.N = 128 := N_0
  have ht : 16 * ((i 0).val / 512) + 4 * ((i 1).val / 512) + 3 < cfg0.N := by rw [hN]; omega
  obtain ⟨-, -, -, -, -, -, e6, e7⟩ := idx_facts ⟨16 * ((i 0).val / 512) + 4 * ((i 1).val / 512) + 3, ht⟩
  refine ⟨⟨16 * ((i 0).val / 512) + 4 * ((i 1).val / 512) + 3, ht⟩, (flush0_3 _).mpr (by dsimp only; omega), ?_⟩
  show i ∈ ((View.whole main_v1).slice (win0_3.rect ⟨16 * ((i 0).val / 512) + 4 * ((i 1).val / 512) + 3, ht⟩)).set
  rw [View.set_slice_whole, Rect.mem_set_unit]
  intro a
  match a with
  | ⟨0, _⟩ =>
    show win0_3.index ⟨16 * ((i 0).val / 512) + 4 * ((i 1).val / 512) + 3, ht⟩ (0 : Fin 2) * 512 ≤ (i 0).val
      ∧ (i 0).val < win0_3.index ⟨16 * ((i 0).val / 512) + 4 * ((i 1).val / 512) + 3, ht⟩ (0 : Fin 2) * 512 + 512
    rw [e6]; dsimp only; omega
  | ⟨1, _⟩ =>
    show win0_3.index ⟨16 * ((i 0).val / 512) + 4 * ((i 1).val / 512) + 3, ht⟩ (1 : Fin 2) * 512 ≤ (i 1).val
      ∧ (i 1).val < win0_3.index ⟨16 * ((i 0).val / 512) + 4 * ((i 1).val / 512) + 3, ht⟩ (1 : Fin 2) * 512 + 512
    rw [e7]; dsimp only; omega

/-- So the result array ends holding the product plus bias of the three arrays as the region finds them. -/
theorem final (c : Dev nD) : (dats m 0 c).arrAt 3 cfg0.N = result m c :=
  (dats m 0 c).arrAt_eq_of_cover 3 (result m c) (flushed_eq m c) cover

end Cert.ReferenceIdeal.RefValue
end
-- ==== Proof.RefRun.lean ====
/-
  The whole program's value.

  Before the grid one line flattens the [8, 512, 2048] activations to [4096, 2048]; the weights and the bias row are
  read as launched. The grid leaves the [4096, 2048] result at the product plus bias of those three arrays. After the
  grid one line folds the result back to [8, 512, 2048]. Together: the result is the dense layer of the three
  arguments as launched, and the arguments end unchanged.
-/
import proofs.«166904_g2000606664748321_pallasbulk_460_14_alg».proof.Proof.RefBlocks
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.ReferenceIdeal.RefValue

open Cert.ReferenceIdeal Cert.ReferenceIdeal.Gen

variable (m : (ℓ : Loc nD τ sig) → Buf (Elt Ideal) ℓ)

/-- The flattened activations the grid reads are the reshape of the first argument as launched. -/
theorem acts_eq (c : Dev nD) :
    acts m c = shapeCast S4096x2048 (m ((c : Thread nD τ).loc main_arg0)) shapeCasts_S8x512x2048_S4096x2048 := by
  show StableHlo.after hostOps0 (fun b => m (c, b)) (Proc.devRef .tc main_v0) = _
  after_results
  rfl

/-- The weights and the bias row are the second and third arguments as launched. -/
theorem wts_eq (c : Dev nD) : wts m c = m ((c : Thread nD τ).loc main_arg1) := V_main_arg1 m c
theorem bias_eq (c : Dev nD) : bias m c = m ((c : Thread nD τ).loc main_arg2) := V_main_arg2 m c

/-- After the grid the last line folds the result array back to [8, 512, 2048]. -/
theorem tail_eq (c : Dev nD) : Pipeline.afterTail₀ cfgs (dats m) 0 (V0 m) [hostOps1] c main_v2
    = shapeCast S8x512x2048 (result m c) shapeCasts_S4096x2048_S8x512x2048 := by
  unfold Pipeline.afterTail₀
  show StableHlo.after hostOps1 _ (Proc.devRef .tc main_v2) = _
  after_results
  exact congrArg (fun A => shapeCast S8x512x2048 A shapeCasts_S4096x2048_S8x512x2048)
    ((Pipeline.withArrays_arr spec0 launch0.win.arr_inj c _ _ 3).trans (final m c))

/-- The value the program computes, as one function of its three arguments. -/
theorem value_eq (c : Dev nD) :
    shapeCast S8x512x2048 (result m c) shapeCasts_S4096x2048_S8x512x2048
      = Cert.DenseSpec.denseOut shapeCasts_S8x512x2048_S4096x2048 shapeCasts_S4096x2048_S8x512x2048
          (m ((c : Thread nD τ).loc main_arg0)) (m ((c : Thread nD τ).loc main_arg1)) (m ((c : Thread nD τ).loc main_arg2)) := by
  unfold Cert.DenseSpec.denseOut
  show shapeCast S8x512x2048 (Cert.DenseSpec.dense (acts m c) (wts m c) (bias m c)) _ = _
  rw [acts_eq, wts_eq, bias_eq]

/-- At the ideal values, from any memory with zero counters: every weakly fair execution of the program terminates,
    its result is the dense layer of its three arguments as launched, and the arguments end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2)
        = Cert.DenseSpec.denseOut shapeCasts_S8x512x2048_S4096x2048 shapeCasts_S4096x2048_S8x512x2048
            (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v2 (Pipeline.mem_restRefs_of main_v2 (by decide) (by decide))).trans ((tail_eq m c).trans (value_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ReferenceIdeal.RefValue
end
-- ==== Proof.lean ====
/-
  The dense layer y = reshape(x) · w + b as a Pallas kernel that splits the contraction in two halves through a
  full-height scratch, against a reference that tiles rows, columns and the contraction and accumulates four quarters
  into a zeroed scratch: both frames, and equality of the results on the extended reals.

  The kernel. Its grid is (half k of the contraction, block i of 512 rows). At k = 0 it stores the partial product of
  the first 1024 contracted coordinates of row block i into band i of a [4096, 2048] scratch; at k = 1 it adds to that
  band the partial product of the last 1024 coordinates and the bias row, and writes the sum back as block i of the
  result. The scratch is filled one band per point and read one band per point, so what it holds is stated as an
  invariant over the points (KIData / KBData: exact on the bands already written, unconstrained elsewhere); the frame
  of the printed program and of its idealization are the same proof at the two instances (KB… at the words, KI… at the
  extended reals). KIValue reads the result: entry (r, c) is the sum over the first half plus the sum over the second
  half plus b(c), which is the whole contraction plus b(c) — a regrouping of a finite sum, valid on the extended reals
  with no finiteness assumption, so the precondition is never opened.

  The reference. It accumulates the four quarters of 512 contracted coordinates into an accumulator that starts at zero
  and adds the bias at the last quarter (Ref…): ((((0 + Q0) + Q1) + Q2) + Q3) + b(c), the same whole contraction
  plus b(c) by the same regrouping.

  Both programs flatten the activations' leading axes before the region and fold the rows back after it, so both end
  with `DenseSpec.denseOut` of their arguments, and arguments that agree give equal results. The ideal pass rewrote
  nothing, so the preservation conjunct is trivial.
-/
import proofs.«166904_g2000606664748321_pallasbulk_460_14_alg».proof.Defs
import proofs.«166904_g2000606664748321_pallasbulk_460_14_alg».proof.Proof.Gen.Kernel
import proofs.«166904_g2000606664748321_pallasbulk_460_14_alg».proof.Proof.Gen.KernelIdeal
import proofs.«166904_g2000606664748321_pallasbulk_460_14_alg».proof.Proof.Gen.ReferenceIdeal
import proofs.«166904_g2000606664748321_pallasbulk_460_14_alg».proof.Proof.Gen.ReferenceIdeal.Frame
import proofs.«166904_g2000606664748321_pallasbulk_460_14_alg».proof.Proof.Gen.Pre_finite_inputs
import proofs.«166904_g2000606664748321_pallasbulk_460_14_alg».proof.Proof.KBData
import proofs.«166904_g2000606664748321_pallasbulk_460_14_alg».proof.Proof.KIValue
import proofs.«166904_g2000606664748321_pallasbulk_460_14_alg».proof.Proof.RefRun
import Idealize.ShloMosaic.Adequacy
import Idealize.ShloMosaic.Init

noncomputable section

namespace Cert.Proof

open Idealize.ShloMosaic Idealize.SL.Sem

/-- The printed kernel runs and leaves its arguments unchanged. -/
theorem frame_kernel : @Cert.frame_Kernel Cert.Kernel.Gen.facts Cert.Pre_finite_inputs.Gen.facts :=
  fun m ρ _ => Cert.Kernel.Body.frame (F := Bits) m ρ

/-- So does its idealization. -/
theorem frame_kernel_ideal : @Cert.frame_KernelIdeal Cert.KernelIdeal.Gen.facts Cert.Pre_finite_inputs.Gen.facts :=
  fun m ρ _ => Cert.KernelIdeal.Body.frame (F := Ideal) m ρ

/-- And the idealized reference. -/
theorem frame_reference_ideal : @Cert.frame_ReferenceIdeal Cert.ReferenceIdeal.Gen.facts Cert.Pre_finite_inputs.Gen.facts :=
  fun m ρ _ => Cert.ReferenceIdeal.Gen.frame m ρ

/-- From memories that agree on the arguments both idealized programs end at `denseOut` of those arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.DenseValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
